-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2 : Shape := ⟨2, ![50000, 2]⟩
abbrev S2x800000 : Shape := ⟨2, ![2, 800000]⟩
abbrev S50000 : Shape := ⟨1, ![50000]⟩
abbrev S64x128 : Shape := ⟨2, ![64, 128]⟩
abbrev S256x256 : Shape := ⟨2, ![256, 256]⟩
abbrev S256 : Shape := ⟨1, ![256]⟩
abbrev S32x256 : Shape := ⟨2, ![32, 256]⟩
abbrev S32 : Shape := ⟨1, ![32]⟩
abbrev S_ : Shape := ⟨0, ![]⟩

class Facts : Prop where
  bcast_S_S64x128 : S_.BroadcastsInDim S64x128 (![] : Fin 0 → Fin S64x128.rank)
  reducesTo_S64x128_S_d0_1 : S64x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg10 : FVec F S256x256 .f32) (main_arg11 : FVec F S32x256 .f32) (main_arg12 : FVec F S32 .f32) (main_v33 : IVec S_ 1) : IVec S_ 1 :=
  let main_v34 : FVec F S256x256 .f32 := Host.absf main_arg10
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S32x256 .f32 := Host.absf main_arg11
  let main_cst_14 : FVec F S_ .f32 := constant S_ .f32 0x7F800000#32
  let main_v40 : FVec F S32x256 .f32 := broadcastInDim S32x256 ![] bcast_S_S32x256 main_cst_14
  let main_v41 : IVec S32x256 1 := cmpf .olt main_v39 main_v40
  let main_c_15 : IVec S_ 1 := constantI S_ 1 1#1
  let main_v42 : IVec S_ 1 := (fun x v => Host.reduce IntOp.andi x v reducesTo_S32x256_S_d0_1 h_S_) main_v41 main_c_15
  let main_v43 : IVec S_ 1 := andi main_v38 main_v42
  let main_v44 : FVec F S32 .f32 := Host.absf main_arg12
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  main_v48

def fn_part1 {F : FTy → Type} [FloatOps F] (main_arg7 : FVec F S256x256 .f32) (main_arg8 : FVec F S256x256 .f32) (main_arg9 : FVec F S256 .f32) (main_arg10 : FVec F S256x256 .f32) (main_arg11 : FVec F S32x256 .f32) (main_arg12 : FVec F S32 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg7
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg8
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg9
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg10 main_arg11 main_arg12 main_v33

def fn {F : FTy → Type} [FloatOps F] (main_arg0 : IVec S50000x2 32) (main_arg1 : IVec S2x800000 32) (main_arg2 : IVec S50000 32) (main_arg3 : FVec F S64x128 .f32) (main_arg4 : FVec F S64x128 .f32) (main_arg5 : FVec F S256x256 .f32) (main_arg6 : FVec F S256 .f32) (main_arg7 : FVec F S256x256 .f32) (main_arg8 : FVec F S256x256 .f32) (main_arg9 : FVec F S256 .f32) (main_arg10 : FVec F S256x256 .f32) (main_arg11 : FVec F S32x256 .f32) (main_arg12 : FVec F S32 .f32) : IVec S_ 1 :=
  let main_v0 : FVec F S64x128 .f32 := Host.absf main_arg3
  let main_cst : FVec F S_ .f32 := constant S_ .f32 0x7F800000#32
  let main_v1 : FVec F S64x128 .f32 := broadcastInDim S64x128 ![] bcast_S_S64x128 main_cst
  let main_v2 : IVec S64x128 1 := cmpf .olt main_v0 main_v1
  let main_c : IVec S_ 1 := constantI S_ 1 1#1
  let main_v3 : IVec S_ 1 := (fun x v => Host.reduce IntOp.andi x v reducesTo_S64x128_S_d0_1 h_S_) main_v2 main_c
  let main_v4 : FVec F S64x128 .f32 := Host.absf main_arg4
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S256x256 .f32 := Host.absf main_arg5
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg6
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg7 main_arg8 main_arg9 main_arg10 main_arg11 main_arg12 main_v13 main_v16
-- ==== Kernel.lean ====
abbrev S50000x2 : Shape := ⟨2, ![50000, 2]⟩
abbrev S2x800000 : Shape := ⟨2, ![2, 800000]⟩
abbrev S50000 : Shape := ⟨1, ![50000]⟩
abbrev S64x128 : Shape := ⟨2, ![64, 128]⟩
abbrev S256x256 : Shape := ⟨2, ![256, 256]⟩
abbrev S256 : Shape := ⟨1, ![256]⟩
abbrev S32x256 : Shape := ⟨2, ![32, 256]⟩
abbrev S32 : Shape := ⟨1, ![32]⟩
abbrev S1x800000 : Shape := ⟨2, ![1, 800000]⟩
abbrev S800000 : Shape := ⟨1, ![800000]⟩
abbrev S50000x1 : Shape := ⟨2, ![50000, 1]⟩
abbrev S_ : Shape := ⟨0, ![]⟩
abbrev S50000x128 : Shape := ⟨2, ![50000, 128]⟩
abbrev S50000x256 : Shape := ⟨2, ![50000, 256]⟩
abbrev S800000x1 : Shape := ⟨2, ![800000, 1]⟩
abbrev S800000x256 : Shape := ⟨2, ![800000, 256]⟩
abbrev S1x256 : Shape := ⟨2, ![1, 256]⟩
abbrev S2000x256 : Shape := ⟨2, ![2000, 256]⟩
abbrev S512x256 : Shape := ⟨2, ![512, 256]⟩
abbrev S512 : Shape := ⟨1, ![512]⟩
abbrev S512x1 : Shape := ⟨2, ![512, 1]⟩
abbrev S256x32 : Shape := ⟨2, ![256, 32]⟩
abbrev S1x32 : Shape := ⟨2, ![1, 32]⟩
abbrev S512x32 : Shape := ⟨2, ![512, 32]⟩

abbrev nBuf : Space → Nat
  | .hbm => 117
  | .vmem => 22
  | .smem => 0
  | _ => 0

abbrev bufTy : (tb : Table) → Fin (tcTables nBuf tb) → BufTy
  | .hbm, ⟨0, _⟩ => ⟨S50000x2, .i32⟩
  | .hbm, ⟨1, _⟩ => ⟨S2x800000, .i32⟩
  | .hbm, ⟨2, _⟩ => ⟨S50000, .i32⟩
  | .hbm, ⟨3, _⟩ => ⟨S64x128, .f32⟩
  | .hbm, ⟨4, _⟩ => ⟨S64x128, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S32x256, .f32⟩
  | .hbm, ⟨12, _⟩ => ⟨S32, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000x1, .i32⟩
  | .hbm, ⟨18, _⟩ => ⟨S50000, .i32⟩
  | .hbm, ⟨19, _⟩ => ⟨S_, .i32⟩
  | .hbm, ⟨20, _⟩ => ⟨S50000, .i32⟩
  | .hbm, ⟨21, _⟩ => ⟨S50000, .i1⟩
  | .hbm, ⟨22, _⟩ => ⟨S_, .i32⟩
  | .hbm, ⟨23, _⟩ => ⟨S50000, .i32⟩
  | .hbm, ⟨24, _⟩ => ⟨S50000, .i32⟩
  | .hbm, ⟨25, _⟩ => ⟨S50000, .i32⟩
  | .hbm, ⟨26, _⟩ => ⟨S50000x1, .i32⟩
  | .hbm, ⟨27, _⟩ => ⟨S50000x128, .f32⟩
  | .hbm, ⟨28, _⟩ => ⟨S50000x1, .i32⟩
  | .hbm, ⟨29, _⟩ => ⟨S50000, .i32⟩
  | .hbm, ⟨30, _⟩ => ⟨S_, .i32⟩
  | .hbm, ⟨31, _⟩ => ⟨S50000, .i32⟩
  | .hbm, ⟨32, _⟩ => ⟨S50000, .i1⟩
  | .hbm, ⟨33, _⟩ => ⟨S_, .i32⟩
  | .hbm, ⟨34, _⟩ => ⟨S50000, .i32⟩
  | .hbm, ⟨35, _⟩ => ⟨S50000, .i32⟩
  | .hbm, ⟨36, _⟩ => ⟨S50000, .i32⟩
  | .hbm, ⟨37, _⟩ => ⟨S50000x1, .i32⟩
  | .hbm, ⟨38, _⟩ => ⟨S50000x128, .f32⟩
  | .hbm, ⟨39, _⟩ => ⟨S50000x256, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x256, .f32⟩
  | .hbm, ⟨49, _⟩ => ⟨S_, .f32⟩
  | .hbm, ⟨50, _⟩ => ⟨S50000x256, .f32⟩
  | .hbm, ⟨51, _⟩ => ⟨S800000x1, .i32⟩
  | .hbm, ⟨52, _⟩ => ⟨S50000x256, .f32⟩
  | .hbm, ⟨53, _⟩ => ⟨S_, .f32⟩
  | .hbm, ⟨54, _⟩ => ⟨S800000, .f32⟩
  | .hbm, ⟨55, _⟩ => ⟨S_, .f32⟩
  | .hbm, ⟨56, _⟩ => ⟨S50000, .f32⟩
  | .hbm, ⟨57, _⟩ => ⟨S800000x1, .i32⟩
  | .hbm, ⟨58, _⟩ => ⟨S50000, .f32⟩
  | .hbm, ⟨59, _⟩ => ⟨S_, .f32⟩
  | .hbm, ⟨60, _⟩ => ⟨S50000, .f32⟩
  | .hbm, ⟨61, _⟩ => ⟨S50000, .f32⟩
  | .hbm, ⟨62, _⟩ => ⟨S50000x1, .f32⟩
  | .hbm, ⟨63, _⟩ => ⟨S50000x256, .f32⟩
  | .hbm, ⟨64, _⟩ => ⟨S50000x256, .f32⟩
  | .hbm, ⟨65, _⟩ => ⟨S256x256, .f32⟩
  | .hbm, ⟨66, _⟩ => ⟨S256x256, .f32⟩
  | .hbm, ⟨67, _⟩ => ⟨S1x256, .f32⟩
  | .hbm, ⟨68, _⟩ => ⟨S50000x256, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x256, .f32⟩
  | .hbm, ⟨78, _⟩ => ⟨S_, .f32⟩
  | .hbm, ⟨79, _⟩ => ⟨S50000x256, .f32⟩
  | .hbm, ⟨80, _⟩ => ⟨S800000x1, .i32⟩
  | .hbm, ⟨81, _⟩ => ⟨S50000x256, .f32⟩
  | .hbm, ⟨82, _⟩ => ⟨S_, .f32⟩
  | .hbm, ⟨83, _⟩ => ⟨S800000, .f32⟩
  | .hbm, ⟨84, _⟩ => ⟨S_, .f32⟩
  | .hbm, ⟨85, _⟩ => ⟨S50000, .f32⟩
  | .hbm, ⟨86, _⟩ => ⟨S800000x1, .i32⟩
  | .hbm, ⟨87, _⟩ => ⟨S50000, .f32⟩
  | .hbm, ⟨88, _⟩ => ⟨S_, .f32⟩
  | .hbm, ⟨89, _⟩ => ⟨S50000, .f32⟩
  | .hbm, ⟨90, _⟩ => ⟨S50000, .f32⟩
  | .hbm, ⟨91, _⟩ => ⟨S50000x1, .f32⟩
  | .hbm, ⟨92, _⟩ => ⟨S50000x256, .f32⟩
  | .hbm, ⟨93, _⟩ => ⟨S50000x256, .f32⟩
  | .hbm, ⟨94, _⟩ => ⟨S256x256, .f32⟩
  | .hbm, ⟨95, _⟩ => ⟨S256x256, .f32⟩
  | .hbm, ⟨96, _⟩ => ⟨S1x256, .f32⟩
  | .hbm, ⟨97, _⟩ => ⟨S50000x256, .f32⟩
  | .hbm, ⟨98, _⟩ => ⟨S_, .f32⟩
  | .hbm, ⟨99, _⟩ => ⟨S512x256, .f32⟩
  | .hbm, ⟨100, _⟩ => ⟨S50000x1, .i32⟩
  | .hbm, ⟨101, _⟩ => ⟨S512x256, .f32⟩
  | .hbm, ⟨102, _⟩ => ⟨S_, .f32⟩
  | .hbm, ⟨103, _⟩ => ⟨S50000, .f32⟩
  | .hbm, ⟨104, _⟩ => ⟨S_, .f32⟩
  | .hbm, ⟨105, _⟩ => ⟨S512, .f32⟩
  | .hbm, ⟨106, _⟩ => ⟨S50000x1, .i32⟩
  | .hbm, ⟨107, _⟩ => ⟨S512, .f32⟩
  | .hbm, ⟨108, _⟩ => ⟨S_, .f32⟩
  | .hbm, ⟨109, _⟩ => ⟨S512, .f32⟩
  | .hbm, ⟨110, _⟩ => ⟨S512, .f32⟩
  | .hbm, ⟨111, _⟩ => ⟨S512x1, .f32⟩
  | .hbm, ⟨112, _⟩ => ⟨S512x256, .f32⟩
  | .hbm, ⟨113, _⟩ => ⟨S512x256, .f32⟩
  | .hbm, ⟨114, _⟩ => ⟨S256x32, .f32⟩
  | .hbm, ⟨115, _⟩ => ⟨S1x32, .f32⟩
  | .hbm, ⟨116, _⟩ => ⟨S512x32, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S512x256, .f32⟩
  | .local _ .vmem, ⟨19, _⟩ => ⟨S256x32, .f32⟩
  | .local _ .vmem, ⟨20, _⟩ => ⟨S1x32, .f32⟩
  | .local _ .vmem, ⟨21, _⟩ => ⟨S512x32, .f32⟩
  | _, _ => ⟨S50000x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_8 : Ref sig .tc := ⟨.hbm, 69, rfl⟩
abbrev main_v46 : Ref sig .tc := ⟨.hbm, 70, rfl⟩
abbrev main_v47 : Ref sig .tc := ⟨.hbm, 71, rfl⟩
abbrev main_c_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_15 : Ref sig .tc := ⟨.hbm, 102, rfl⟩
abbrev main_v72 : Ref sig .tc := ⟨.hbm, 103, rfl⟩
abbrev main_cst_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_17 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S256x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S50000x2_S50000x1_0_0 : S50000x2.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S50000x2_S50000x1_0_1 : S50000x2.Slices ![0, 1] S50000x1
  concatenates_S50000x128_S50000x128_S50000x256_d1 : Shape.Concatenates [S50000x128, S50000x128] S50000x256 1
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S256x256_S256x256_1_0 : S256x256.Transposes [1, 0] S256x256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S_S512x256 : S_.BroadcastsInDim S512x256 (![] : Fin 0 → Fin S512x256.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  transposes_S32x256_S256x32_1_0 : S32x256.Transposes [1, 0] S256x32
  shapeCasts_S32_S1x32 : S32.ShapeCasts S1x32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S512x32_S512x32_0_0 : ∀ a, (![0, 0] : Fin 2 → Nat) a + S512x32.size a ≤ S512x32.size a
  h_S512x32 : 0 < S512x32.numel
  gather_S64x128_S50000x1_S50000x128_1_0_n_n_0_1_1128_wf : GatherDims.WF S64x128 S50000x1 S50000x128 [1] [0] [] [0] [] 1 ![1, 128]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S2000x256_S256x256_S2000x256_1_0_0_1_n_n_wf : DotDims.WF S2000x256 S256x256 S2000x256 [1] [0] [0] [1] [] []
  scatter_S512x256_S50000x1_S50000x256_1_0_0_1_wf : ScatterDims.WF S512x256 S50000x1 S50000x256 [1] [0] [0] 1
  scatter_S512_S50000x1_S50000_n_0_0_1_wf : ScatterDims.WF S512 S50000x1 S50000 [] [0] [0] 1
  dot_S512x256_S256x32_S512x32_1_0_0_1_n_n_wf : DotDims.WF S512x256 S256x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S512x256.size a
  hwx2_0 : ∀ i : grid2.Coords, EltTy.bits .f32 = 32 ∨ (Rect.block (s := S512x256) S512x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x32.size a ≤ S256x32.size a
  hwx2_1 : ∀ i : grid2.Coords, EltTy.bits .f32 = 32 ∨ (Rect.block (s := S256x32) S256x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x32.size a ≤ S512x32.size a
  hwx2_3 : ∀ i : grid2.Coords, EltTy.bits .f32 = 32 ∨ (Rect.block (s := S512x32) S512x32.size (cc2_transform_3 i) (hinb2_3 i)).WholeWords (EltTy.packing .f32)

variable [Facts₀]

def gather_S64x128_S50000x1_S50000x128_1_0_n_n_0_1_1128 : GatherDims S64x128 S50000x1 S50000x128 where
  offsetDims := [1]
  collapsedSliceDims := [0]
  operandBatchingDims := []
  startIndicesBatchingDims := []
  startIndexMap := [0]
  indexVectorDim := 1
  sliceSizes := ![1, 128]
  wf := gather_S64x128_S50000x1_S50000x128_1_0_n_n_0_1_1128_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x256_S256x32_S512x32_1_0_0_1_n_n : DotDims S512x256 S256x32 S512x32 where
  lhsContracting := [1]
  rhsContracting := [0]
  lhsNonContracting := [0]
  rhsNonContracting := [1]
  lhsBatch := []
  rhsBatch := []
  wf := dot_S512x256_S256x32_S512x32_1_0_0_1_n_n_wf

abbrev win0_0 : Pipeline.Window sig grid0 :=
  Pipeline.Window.ofSpec (Memref.whole main_v41) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v44) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v45) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v64) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v65) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v66) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v67) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v68) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v80) S512x256.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v81) S256x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v82) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v83) S512x32.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x2 : Shape := ⟨2, ![50000, 2]⟩
abbrev S2x800000 : Shape := ⟨2, ![2, 800000]⟩
abbrev S50000 : Shape := ⟨1, ![50000]⟩
abbrev S64x128 : Shape := ⟨2, ![64, 128]⟩
abbrev S256x256 : Shape := ⟨2, ![256, 256]⟩
abbrev S256 : Shape := ⟨1, ![256]⟩
abbrev S32x256 : Shape := ⟨2, ![32, 256]⟩
abbrev S32 : Shape := ⟨1, ![32]⟩
abbrev S1x800000 : Shape := ⟨2, ![1, 800000]⟩
abbrev S800000 : Shape := ⟨1, ![800000]⟩
abbrev S50000x1 : Shape := ⟨2, ![50000, 1]⟩
abbrev S_ : Shape := ⟨0, ![]⟩
abbrev S50000x128 : Shape := ⟨2, ![50000, 128]⟩
abbrev S50000x256 : Shape := ⟨2, ![50000, 256]⟩
abbrev S800000x1 : Shape := ⟨2, ![800000, 1]⟩
abbrev S800000x256 : Shape := ⟨2, ![800000, 256]⟩
abbrev S1x256 : Shape := ⟨2, ![1, 256]⟩
abbrev S512x256 : Shape := ⟨2, ![512, 256]⟩
abbrev S512 : Shape := ⟨1, ![512]⟩
abbrev S512x1 : Shape := ⟨2, ![512, 1]⟩
abbrev S256x32 : Shape := ⟨2, ![256, 32]⟩
abbrev S512x32 : Shape := ⟨2, ![512, 32]⟩
abbrev S1x32 : Shape := ⟨2, ![1, 32]⟩

abbrev nBuf : Space → Nat
  | .hbm => 133
  | .vmem => 0
  | .smem => 0
  | _ => 0

abbrev hbmTy0_0 (i : Nat) : BufTy := match i % 128 with
  | 0 => ⟨S50000x2, .i32⟩
  | 1 => ⟨S2x800000, .i32⟩
  | 2 => ⟨S50000, .i32⟩
  | 3 => ⟨S64x128, .f32⟩
  | 4 => ⟨S64x128, .f32⟩
  | 5 => ⟨S256x256, .f32⟩
  | 6 => ⟨S256, .f32⟩
  | 7 => ⟨S256x256, .f32⟩
  | 8 => ⟨S256x256, .f32⟩
  | 9 => ⟨S256, .f32⟩
  | 10 => ⟨S256x256, .f32⟩
  | 11 => ⟨S32x256, .f32⟩
  | 12 => ⟨S32, .f32⟩
  | 13 => ⟨S1x800000, .i32⟩
  | 14 => ⟨S800000, .i32⟩
  | 15 => ⟨S1x800000, .i32⟩
  | 16 => ⟨S800000, .i32⟩
  | 17 => ⟨S50000x1, .i32⟩
  | 18 => ⟨S50000, .i32⟩
  | 19 => ⟨S_, .i32⟩
  | 20 => ⟨S50000, .i32⟩
  | 21 => ⟨S50000, .i1⟩
  | 22 => ⟨S_, .i32⟩
  | 23 => ⟨S50000, .i32⟩
  | 24 => ⟨S50000, .i32⟩
  | 25 => ⟨S50000, .i32⟩
  | 26 => ⟨S50000x1, .i32⟩
  | 27 => ⟨S50000x128, .f32⟩
  | 28 => ⟨S50000x1, .i32⟩
  | 29 => ⟨S50000, .i32⟩
  | 30 => ⟨S_, .i32⟩
  | 31 => ⟨S50000, .i32⟩
  | 32 => ⟨S50000, .i1⟩
  | 33 => ⟨S_, .i32⟩
  | 34 => ⟨S50000, .i32⟩
  | 35 => ⟨S50000, .i32⟩
  | 36 => ⟨S50000, .i32⟩
  | 37 => ⟨S50000x1, .i32⟩
  | 38 => ⟨S50000x128, .f32⟩
  | 39 => ⟨S50000x256, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x256, .f32⟩
  | 49 => ⟨S_, .f32⟩
  | 50 => ⟨S50000x256, .f32⟩
  | 51 => ⟨S800000x1, .i32⟩
  | 52 => ⟨S50000x256, .f32⟩
  | 53 => ⟨S_, .f32⟩
  | 54 => ⟨S800000, .f32⟩
  | 55 => ⟨S_, .f32⟩
  | 56 => ⟨S50000, .f32⟩
  | 57 => ⟨S800000x1, .i32⟩
  | 58 => ⟨S50000, .f32⟩
  | 59 => ⟨S_, .f32⟩
  | 60 => ⟨S50000, .f32⟩
  | 61 => ⟨S50000, .f32⟩
  | 62 => ⟨S50000x1, .f32⟩
  | 63 => ⟨S50000x256, .f32⟩
  | 64 => ⟨S50000x256, .f32⟩
  | 65 => ⟨S256x256, .f32⟩
  | 66 => ⟨S50000x256, .f32⟩
  | 67 => ⟨S1x256, .f32⟩
  | 68 => ⟨S50000x256, .f32⟩
  | 69 => ⟨S50000x256, .f32⟩
  | 70 => ⟨S256x256, .f32⟩
  | 71 => ⟨S50000x256, .f32⟩
  | 72 => ⟨S50000x256, .f32⟩
  | 73 => ⟨S_, .f32⟩
  | 74 => ⟨S50000x256, .f32⟩
  | 75 => ⟨S50000x256, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x256, .f32⟩
  | 85 => ⟨S_, .f32⟩
  | 86 => ⟨S50000x256, .f32⟩
  | 87 => ⟨S800000x1, .i32⟩
  | 88 => ⟨S50000x256, .f32⟩
  | 89 => ⟨S_, .f32⟩
  | 90 => ⟨S800000, .f32⟩
  | 91 => ⟨S_, .f32⟩
  | 92 => ⟨S50000, .f32⟩
  | 93 => ⟨S800000x1, .i32⟩
  | 94 => ⟨S50000, .f32⟩
  | 95 => ⟨S_, .f32⟩
  | 96 => ⟨S50000, .f32⟩
  | 97 => ⟨S50000, .f32⟩
  | 98 => ⟨S50000x1, .f32⟩
  | 99 => ⟨S50000x256, .f32⟩
  | 100 => ⟨S50000x256, .f32⟩
  | 101 => ⟨S256x256, .f32⟩
  | 102 => ⟨S50000x256, .f32⟩
  | 103 => ⟨S1x256, .f32⟩
  | 104 => ⟨S50000x256, .f32⟩
  | 105 => ⟨S50000x256, .f32⟩
  | 106 => ⟨S256x256, .f32⟩
  | 107 => ⟨S50000x256, .f32⟩
  | 108 => ⟨S50000x256, .f32⟩
  | 109 => ⟨S_, .f32⟩
  | 110 => ⟨S50000x256, .f32⟩
  | 111 => ⟨S50000x256, .f32⟩
  | 112 => ⟨S_, .f32⟩
  | 113 => ⟨S512x256, .f32⟩
  | 114 => ⟨S50000x1, .i32⟩
  | 115 => ⟨S512x256, .f32⟩
  | 116 => ⟨S_, .f32⟩
  | 117 => ⟨S50000, .f32⟩
  | 118 => ⟨S_, .f32⟩
  | 119 => ⟨S512, .f32⟩
  | 120 => ⟨S50000x1, .i32⟩
  | 121 => ⟨S512, .f32⟩
  | 122 => ⟨S_, .f32⟩
  | 123 => ⟨S512, .f32⟩
  | 124 => ⟨S512, .f32⟩
  | 125 => ⟨S512x1, .f32⟩
  | 126 => ⟨S512x256, .f32⟩
  | 127 => ⟨S512x256, .f32⟩
  | _ => ⟨S50000x2, .i32⟩

abbrev hbmTy0_1 (i : Nat) : BufTy := match i % 128 with
  | 0 => ⟨S256x32, .f32⟩
  | 1 => ⟨S512x32, .f32⟩
  | 2 => ⟨S1x32, .f32⟩
  | 3 => ⟨S512x32, .f32⟩
  | 4 => ⟨S512x32, .f32⟩
  | _ => ⟨S50000x2, .i32⟩

abbrev hbmTy (i : Nat) : BufTy := match i / 128 with
  | 0 => hbmTy0_0 i
  | 1 => hbmTy0_1 i
  | _ => ⟨S50000x2, .i32⟩

abbrev bufTy : (tb : Table) → Fin (tcTables nBuf tb) → BufTy
  | .hbm, ⟨i, _⟩ => hbmTy i
  | _, _ => ⟨S50000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call0_cst : Ref sig .tc := ⟨.hbm, 73, rfl⟩
abbrev main_call0_v0 : Ref sig .tc := ⟨.hbm, 74, rfl⟩
abbrev main_v50 : Ref sig .tc := ⟨.hbm, 75, rfl⟩
abbrev main_c_8 : Ref sig .tc := ⟨.hbm, 76, rfl⟩
abbrev main_v51 : Ref sig .tc := ⟨.hbm, 77, rfl⟩
abbrev main_v52 : Ref sig .tc := ⟨.hbm, 78, rfl⟩
abbrev main_c_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_cst_12 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_call1_cst : Ref sig .tc := ⟨.hbm, 109, rfl⟩
abbrev main_call1_v0 : Ref sig .tc := ⟨.hbm, 110, rfl⟩
abbrev main_v78 : Ref sig .tc := ⟨.hbm, 111, rfl⟩
abbrev main_cst_14 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_15 : Ref sig .tc := ⟨.hbm, 116, rfl⟩
abbrev main_v82 : Ref sig .tc := ⟨.hbm, 117, rfl⟩
abbrev main_cst_16 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_17 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S50000x2_S50000x1_0_0 : S50000x2.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S50000x2_S50000x1_0_1 : S50000x2.Slices ![0, 1] S50000x1
  concatenates_S50000x128_S50000x128_S50000x256_d1 : Shape.Concatenates [S50000x128, S50000x128] S50000x256 1
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S256x256_S256x256_1_0 : S256x256.Transposes [1, 0] S256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S512x256 : S_.BroadcastsInDim S512x256 (![] : Fin 0 → Fin S512x256.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  transposes_S32x256_S256x32_1_0 : S32x256.Transposes [1, 0] S256x32
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  gather_S64x128_S50000x1_S50000x128_1_0_n_n_0_1_1128_wf : GatherDims.WF S64x128 S50000x1 S50000x128 [1] [0] [] [0] [] 1 ![1, 128]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  scatter_S512x256_S50000x1_S50000x256_1_0_0_1_wf : ScatterDims.WF S512x256 S50000x1 S50000x256 [1] [0] [0] 1
  scatter_S512_S50000x1_S50000_n_0_0_1_wf : ScatterDims.WF S512 S50000x1 S50000 [] [0] [0] 1
  dot_S512x256_S256x32_S512x32_1_0_0_1_n_n_wf : DotDims.WF S512x256 S256x32 S512x32 [1] [0] [0] [1] [] []

variable [Facts₀]

def gather_S64x128_S50000x1_S50000x128_1_0_n_n_0_1_1128 : GatherDims S64x128 S50000x1 S50000x128 where
  offsetDims := [1]
  collapsedSliceDims := [0]
  operandBatchingDims := []
  startIndicesBatchingDims := []
  startIndexMap := [0]
  indexVectorDim := 1
  sliceSizes := ![1, 128]
  wf := gather_S64x128_S50000x1_S50000x128_1_0_n_n_0_1_1128_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x256_S256x32_S512x32_1_0_0_1_n_n : DotDims S512x256 S256x32 S512x32 where
  lhsContracting := [1]
  rhsContracting := [0]
  lhsNonContracting := [0]
  rhsNonContracting := [1]
  lhsBatch := []
  rhsBatch := []
  wf := dot_S512x256_S256x32_S512x32_1_0_0_1_n_n_wf

class Facts : Prop extends Facts₀ where

variable [Facts]
-- ==== Proof.KRun.lean ====
/-
  The idealized kernel's run, with every buffer named.

  The program is three kernel regions among three stretches of host operations. Its buffer contents are followed
  boundary by boundary: launch, after the first stretch, after the first region, and so on; the last boundary's
  contents are `Gen.W6`. Every weakly fair execution terminates, nothing faulting, with every buffer that is not
  scoped to a kernel holding the last boundary's contents (`run_boundary`). In particular the result array holds
  `Gen.W6` at its reference and each argument array is as launched (`run_result`).
-/
import proofs.«105102_j88648124990053_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in its final state every buffer
    not scoped to a kernel holds the contents of the last boundary: the six segments run in order, each entered
    from the contents the one before leaves. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The run with the result array named: it ends holding the last boundary's contents at its reference, and the
    thirteen argument arrays end as launched. -/
theorem run_result : θ_run defs (onTc (τ := τ) (main (F := F))) ⟨m, fun _ => 0, ρ⟩ (fun r => ∀ c : Dev nD,
      r.2.mem ((c.tc : Thread nD τ).loc main_v83) = W6 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
      ⟨h c _ (mem_uc main_v83 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)
    (run_boundary m ρ)

end Cert.KernelIdeal.Hand

end
-- ==== Proof.Host0.lean ====
/-
  The first stretch of host operations, read.

  Before the first region the program computes, from the argument arrays alone, the node features (two embedding
  look-ups joined along the feature axis), their mean aggregate over incoming edges, the two transposed weight
  matrices and the bias vector re-laid as a 1 × 256 row. The reference computes the first four by the same operations
  in the same order, so each of these buffers holds the reference's stage of the same arguments; the bias row reads
  the bias vector at its column.
-/
import proofs.«105102_j88648124990053_1_alg».proof.Proof.Gen.KernelIdeal.Frame
import proofs.«105102_j88648124990053_1_alg».proof.Proof.Gen.ReferenceIdeal.Read
import Idealize.ShloMosaic.Lib.StableHlo.Run
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read

variable (m : (ℓ : Loc nD τ sig) → Buf (Elt Ideal) ℓ) (ρ : Dev nD → PrngReg) (c : Dev nD)

/-- The node features entering the first region are the reference's. -/
theorem s0_feat : V1 m ρ c main_v22 = val_main_v22 (F := Ideal) (m ((c : Thread nD τ).loc main_arg0)) (m ((c : Thread nD τ).loc main_arg3)) (m ((c : Thread nD τ).loc main_arg4)) := by
  show StableHlo.after hostOps0 (W0 m ρ c) (Proc.devRef .tc main_v22) = _
  after_results_simp
  rfl

/-- The mean aggregate entering the first region is the reference's. -/
theorem s0_agg : V1 m ρ c main_v41 = val_main_v41 (F := Ideal) (m ((c : Thread nD τ).loc main_arg0)) (m ((c : Thread nD τ).loc main_arg1)) (m ((c : Thread nD τ).loc main_arg3)) (m ((c : Thread nD τ).loc main_arg4)) := by
  show StableHlo.after hostOps0 (W0 m ρ c) (Proc.devRef .tc main_v41) = _
  after_results_simp
  rfl

/-- The first transposed weight matrix. -/
theorem s0_wl : V1 m ρ c main_v42 = val_main_v42 (F := Ideal) (m ((c : Thread nD τ).loc main_arg5)) := by
  show StableHlo.after hostOps0 (W0 m ρ c) (Proc.devRef .tc main_v42) = _
  after_results_simp
  rfl

/-- The second transposed weight matrix. -/
theorem s0_wr : V1 m ρ c main_v43 = val_main_v47 (F := Ideal) (m ((c : Thread nD τ).loc main_arg7)) := by
  show StableHlo.after hostOps0 (W0 m ρ c) (Proc.devRef .tc main_v43) = _
  after_results_simp
  rfl

/-- A vector of 256 re-laid as a 1 × 256 row reads the vector at the column. -/
theorem row_of_vec (b : S256.Idx → EReal) (q : Fin 256) :
    shapeCast S1x256 b shapeCasts_S256_S1x256 (ix2 (0 : Fin 1) q) = b (ix1 q) :=
  shapeCast_apply b shapeCasts_S256_S1x256 (ix2 (0 : Fin 1) q) (ix1 q) (by
    rw [Shape.rowMajor_val_one, Shape.rowMajor_val_two]
    show q.val = 0 * 256 + q.val
    omega)

/-- The bias row entering the first region reads the bias vector at its column. -/
theorem s0_bias (q : Fin 256) : (V1 m ρ c main_v44 : S1x256.Idx → EReal) (ix2 (0 : Fin 1) q) = (m ((c : Thread nD τ).loc main_arg6)) (ix1 q) := by
  have e : (V1 m ρ c main_v44 : S1x256.Idx → EReal) = shapeCast S1x256 (m ((c : Thread nD τ).loc main_arg6)) shapeCasts_S256_S1x256 := by
    show StableHlo.after hostOps0 (W0 m ρ c) (Proc.devRef .tc main_v44) = _
    after_results_simp
    rfl
  rw [e]
  exact row_of_vec _ q

/-- The edge sources, kept for the second layer's gather. -/
theorem s0_src : V1 m ρ c main_v1 = val_main_v1 (F := Ideal) (m ((c : Thread nD τ).loc main_arg1)) := by
  show StableHlo.after hostOps0 (W0 m ρ c) (Proc.devRef .tc main_v1) = _
  after_results_simp
  rfl

/-- The edge destinations, kept for the second layer's scatter. -/
theorem s0_dst : V1 m ρ c main_v3 = val_main_v3 (F := Ideal) (m ((c : Thread nD τ).loc main_arg1)) := by
  show StableHlo.after hostOps0 (W0 m ρ c) (Proc.devRef .tc main_v3) = _
  after_results_simp
  rfl

end Cert.KernelIdeal.Hand

end
-- ==== Proof.LibPlainDot.lean ====
/-
  A plain two-dimensional contraction read as a sum over the contracted extent.

  A dot of an [M, K] operand with a [K, N] operand contracts the left operand's second axis with the right
  operand's first. Its contraction index has one coordinate, so the sum over contraction indices is a sum over
  `k : Fin K`, and the operands are read at (row, k) and (k, column). The four coordinate facts are hypotheses:
  for a record with literal dimension lists each of them holds by computation.
-/
import Idealize.ShloMosaic.Lib.ValueIdx
import Idealize.ShloMosaic.PureOps.Ideal.Laws

noncomputable section

namespace Cert.LibPlainDot

open Idealize.ShloMosaic Idealize.ShloMosaic.ValueIdx

/-- The contraction sum of a plain [M, K] × [K, N] dot at output index `j`, re-indexed by the one contracted
    coordinate: the left operand at (j 0, k) times the right operand at (k, j 1), summed over `k : Fin K`. -/
theorem plain_sum {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (lhs : (⟨2, ![M, K]⟩ : Shape).Idx → EReal) (rhs : (⟨2, ![K, N]⟩ : Shape).Idx → EReal) (j : (⟨2, ![M, N]⟩ : Shape).Idx) :
    ∑ k : D.contr.Idx, lhs (D.lhsIdx j k) * rhs (D.rhsIdx j k) = ∑ k : Fin K, lhs (ix2 (j 0) k) * rhs (ix2 k (j 1)) := by
  rw [← Equiv.sum_comp (contrEquiv1 D K hr hs).symm]
  refine Finset.sum_congr rfl fun k _ => ?_
  have e1 : D.lhsIdx j ((contrEquiv1 D K hr hs).symm k) = ix2 (j 0) k := by
    funext a; apply Fin.ext
    match a with
    | ⟨0, _⟩ => exact hl0 j _
    | ⟨1, _⟩ => exact (hl1 j _).trans (contrEquiv1_symm_val D K hr hs k)
  have e2 : D.rhsIdx j ((contrEquiv1 D K hr hs).symm k) = ix2 k (j 1) := by
    funext a; apply Fin.ext
    match a with
    | ⟨0, _⟩ => exact (hr0 j _).trans (contrEquiv1_symm_val D K hr hs k)
    | ⟨1, _⟩ => exact hr1 j _
  exact congrArg₂ (fun a b => lhs a * rhs b) e1 e2

/-- A matrix unit's product into the zero accumulator, at the exact values, is that sum. -/
theorem matmul_zero_plain {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (lhs : FVec Ideal ⟨2, ![M, K]⟩ φ₁) (rhs : FVec Ideal ⟨2, ![K, N]⟩ φ₂) (j : (⟨2, ![M, N]⟩ : Shape).Idx) :
    FloatOps.matmul D prec lhs rhs (constant ⟨2, ![M, N]⟩ .f32 0x00000000#32) j = ∑ k : Fin K, lhs (ix2 (j 0) k) * rhs (ix2 k (j 1)) :=
  (Ideal.matmul_constant_zero_apply D prec lhs rhs j).trans (plain_sum D hr hs hl0 hl1 hr0 hr1 lhs rhs j)

/-- The host's dot_general, at the exact values, is the same sum. -/
theorem dotGeneral_plain {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (sched : HostSchedule) (lhs : FVec Ideal ⟨2, ![M, K]⟩ φ₁) (rhs : FVec Ideal ⟨2, ![K, N]⟩ φ₂)
    (j : (⟨2, ![M, N]⟩ : Shape).Idx) :
    FloatOps.dotGeneral D prec sched lhs rhs j = ∑ k : Fin K, lhs (ix2 (j 0) k) * rhs (ix2 k (j 1)) :=
  (Ideal.dotGeneral_apply D prec sched lhs rhs j).trans (plain_sum D hr hs hl0 hl1 hr0 hr1 lhs rhs j)

end Cert.LibPlainDot

end
-- ==== Proof.SageSpec.lean ====
/-
  The network's two dense steps as functions of whole arrays, index by index, over the extended reals.

  `layer agg h wl wr b` is one message-passing layer's dense half: at node `i 0` and feature `i 1`,
  max((Σₖ agg(i 0, k) · wl(k, i 1) + Σₖ h(i 0, k) · wr(k, i 1)) + b(0, i 1), 0), the weight matrices already
  transposed and the bias a 1 × 256 row. `classify hg wc b` is the read-out: Σₖ hg(i 0, k) · wc(k, i 1) + b(0, i 1).
  The zero is kept as the all-zero word, the same on both sides, so it is never evaluated.
-/
import Idealize.ShloMosaic.Lib.ValueIdx
import Idealize.ShloMosaic.PureOps.Ideal.Laws

noncomputable section

namespace Cert.Sage

open Idealize.ShloMosaic Idealize.ShloMosaic.ValueIdx

/-- The zero both programs take the maximum with: the all-zero word. -/
abbrev zeroF : EReal := Ideal.ofBits .f32 0x00000000#32

/-- One layer's dense half over the 50000 nodes. -/
def layer (agg h : (⟨2, ![50000, 256]⟩ : Shape).Idx → EReal) (wl wr : (⟨2, ![256, 256]⟩ : Shape).Idx → EReal)
    (b : (⟨2, ![1, 256]⟩ : Shape).Idx → EReal) : (⟨2, ![50000, 256]⟩ : Shape).Idx → EReal :=
  fun i => max (((∑ k : Fin 256, agg (ix2 (i 0) k) * wl (ix2 k (i 1))) + ∑ k : Fin 256, h (ix2 (i 0) k) * wr (ix2 k (i 1)))
    + b (ix2 (0 : Fin 1) (i 1))) zeroF

/-- The read-out over the 512 graphs. -/
def classify (hg : (⟨2, ![512, 256]⟩ : Shape).Idx → EReal) (wc : (⟨2, ![256, 32]⟩ : Shape).Idx → EReal)
    (b : (⟨2, ![1, 32]⟩ : Shape).Idx → EReal) : (⟨2, ![512, 32]⟩ : Shape).Idx → EReal :=
  fun i => (∑ k : Fin 256, hg (ix2 (i 0) k) * wc (ix2 k (i 1))) + b (ix2 (0 : Fin 1) (i 1))

end Cert.Sage

end
-- ==== Proof.SagePay.lean ====
/-
  The kernels' arithmetic at an index, at the exact values.

  A combine kernel's body takes a block of aggregated rows `x0`, the same rows of node features `x1`, two
  256 × 256 weight matrices `x2`, `x3` and a 1 × 256 bias row `x4`, and stores
  max((x0 · x2 + x1 · x3) + x4, 0). The changes of float format in the body are the identity at the exact values,
  each matrix product into the zero accumulator is the sum over the contracted coordinate, and the bias row is
  read at row 0. The classifier's body stores x0 · x1 + x2 the same way.
-/
import proofs.«105102_j88648124990053_1_alg».proof.Proof.Gen.KernelIdeal.Skeleton
import proofs.«105102_j88648124990053_1_alg».proof.Proof.LibPlainDot
import proofs.«105102_j88648124990053_1_alg».proof.Proof.SageSpec
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

open Cert.Sage (zeroF)

/-- The first combine kernel's stored value at row `p`, column `q` of its block. -/
theorem sage_pay0 (x0 x1 : Vec Ideal S2000x256 .f32) (x2 x3 : Vec Ideal S256x256 .f32) (x4 : Vec Ideal S1x256 .f32)
    (p : Fin 2000) (q : Fin 256) :
    k0_pay1 (F := Ideal) x0 x1 x2 x3 x4 (ix2 p q)
      = max (((∑ k : Fin 256, x0 (ix2 p k) * x2 (ix2 k q)) + ∑ k : Fin 256, x1 (ix2 p k) * x3 (ix2 k q))
          + x4 (ix2 (0 : Fin 1) q)) zeroF := by
  unfold k0_pay1
  simp only [shapeCast_self]
  rw [maximumf_apply, addf_apply, addf_apply]
  have hl : matmul (F := Ideal) dot_S2000x256_S256x256_S2000x256_1_0_0_1_n_n none (truncf (F := Ideal) .bf16 x0 bitsLt_bf16_f32)
      (truncf (F := Ideal) .bf16 x2 bitsLt_bf16_f32) (constant (F := Ideal) S2000x256 .f32 0x00000000#32) (ix2 p q)
      = ∑ k : Fin 256, x0 (ix2 p k) * x2 (ix2 k q) :=
    Cert.LibPlainDot.matmul_zero_plain (φ₁ := .bf16) (φ₂ := .bf16) dot_S2000x256_S256x256_S2000x256_1_0_0_1_n_n rfl rfl
      (fun _ _ => rfl) (fun _ _ => rfl) (fun _ _ => rfl) (fun _ _ => rfl) none
      (truncf (F := Ideal) .bf16 x0 bitsLt_bf16_f32) (truncf (F := Ideal) .bf16 x2 bitsLt_bf16_f32) (ix2 p q)
  have hr : matmul (F := Ideal) dot_S2000x256_S256x256_S2000x256_1_0_0_1_n_n none (truncf (F := Ideal) .bf16 x1 bitsLt_bf16_f32)
      (truncf (F := Ideal) .bf16 x3 bitsLt_bf16_f32) (constant (F := Ideal) S2000x256 .f32 0x00000000#32) (ix2 p q)
      = ∑ k : Fin 256, x1 (ix2 p k) * x3 (ix2 k q) :=
    Cert.LibPlainDot.matmul_zero_plain (φ₁ := .bf16) (φ₂ := .bf16) dot_S2000x256_S256x256_S2000x256_1_0_0_1_n_n rfl rfl
      (fun _ _ => rfl) (fun _ _ => rfl) (fun _ _ => rfl) (fun _ _ => rfl) none
      (truncf (F := Ideal) .bf16 x1 bitsLt_bf16_f32) (truncf (F := Ideal) .bf16 x3 bitsLt_bf16_f32) (ix2 p q)
  have hb : broadcastTo S2000x256 x4 broadcasts_S1x256_S2000x256 (ix2 p q) = x4 (ix2 (0 : Fin 1) q) :=
    broadcastTo_apply x4 broadcasts_S1x256_S2000x256 (ix2 p q) (ix2 (0 : Fin 1) q)
      (fun a => by match a with | ⟨0, _⟩ => rfl | ⟨1, _⟩ => rfl)
  rw [hl, hr, hb]
  rfl

/-- The second combine kernel's stored value: the same expression. -/
theorem sage_pay1 (x0 x1 : Vec Ideal S2000x256 .f32) (x2 x3 : Vec Ideal S256x256 .f32) (x4 : Vec Ideal S1x256 .f32)
    (p : Fin 2000) (q : Fin 256) :
    k1_pay1 (F := Ideal) x0 x1 x2 x3 x4 (ix2 p q)
      = max (((∑ k : Fin 256, x0 (ix2 p k) * x2 (ix2 k q)) + ∑ k : Fin 256, x1 (ix2 p k) * x3 (ix2 k q))
          + x4 (ix2 (0 : Fin 1) q)) zeroF :=
  sage_pay0 x0 x1 x2 x3 x4 p q

/-- The classifier kernel's stored value at row `p`, column `q`. -/
theorem cls_pay (x0 : Vec Ideal S512x256 .f32) (x1 : Vec Ideal S256x32 .f32) (x2 : Vec Ideal S1x32 .f32)
    (p : Fin 512) (q : Fin 32) :
    k2_pay1 (F := Ideal) x0 x1 x2 (ix2 p q)
      = (∑ k : Fin 256, x0 (ix2 p k) * x1 (ix2 k q)) + x2 (ix2 (0 : Fin 1) q) := by
  unfold k2_pay1
  simp only [shapeCast_self]
  rw [addf_apply]
  have hl : matmul (F := Ideal) dot_S512x256_S256x32_S512x32_1_0_0_1_n_n none (truncf (F := Ideal) .bf16 x0 bitsLt_bf16_f32)
      (truncf (F := Ideal) .bf16 x1 bitsLt_bf16_f32) (constant (F := Ideal) S512x32 .f32 0x00000000#32) (ix2 p q)
      = ∑ k : Fin 256, x0 (ix2 p k) * x1 (ix2 k q) :=
    Cert.LibPlainDot.matmul_zero_plain (φ₁ := .bf16) (φ₂ := .bf16) dot_S512x256_S256x32_S512x32_1_0_0_1_n_n rfl rfl
      (fun _ _ => rfl) (fun _ _ => rfl) (fun _ _ => rfl) (fun _ _ => rfl) none
      (truncf (F := Ideal) .bf16 x0 bitsLt_bf16_f32) (truncf (F := Ideal) .bf16 x1 bitsLt_bf16_f32) (ix2 p q)
  have hb : broadcastTo S512x32 x2 broadcasts_S1x32_S512x32 (ix2 p q) = x2 (ix2 (0 : Fin 1) q) :=
    broadcastTo_apply x2 broadcasts_S1x32_S512x32 (ix2 p q) (ix2 (0 : Fin 1) q)
      (fun a => by match a with | ⟨0, _⟩ => rfl | ⟨1, _⟩ => rfl)
  rw [hl, hb]

/-- A block of 2000 rows of a layer: when the two row operands are the rows `r … r + 1999` of the node arrays and the
    other three operands are the whole weight and bias arrays, the first combine kernel's stored value at `y` is the
    layer at row `r + y 0`, column `y 1`. -/
theorem layer_block0 (agg h : S50000x256.Idx → EReal) (wl wr : S256x256.Idx → EReal) (b : S1x256.Idx → EReal)
    (x0 x1 : Vec Ideal S2000x256 .f32) (x2 x3 : Vec Ideal S256x256 .f32) (x4 : Vec Ideal S1x256 .f32)
    (y : S2000x256.Idx) (i : S50000x256.Idx) (r : Nat)
    (hi0 : (i 0).val = r + (y 0).val) (hi1 : (i 1).val = (y 1).val)
    (h0 : ∀ (y' : S2000x256.Idx) (i' : S50000x256.Idx), (i' 0).val = r + (y' 0).val → (i' 1).val = (y' 1).val → x0 y' = agg i')
    (h1 : ∀ (y' : S2000x256.Idx) (i' : S50000x256.Idx), (i' 0).val = r + (y' 0).val → (i' 1).val = (y' 1).val → x1 y' = h i')
    (h2 : x2 = wl) (h3 : x3 = wr) (h4 : x4 = b) :
    k0_pay1 (F := Ideal) x0 x1 x2 x3 x4 y = Cert.Sage.layer agg h wl wr b i := by
  subst h2 h3 h4
  obtain ⟨p, q, rfl⟩ : ∃ (p : Fin 2000) (q : Fin 256), y = ix2 p q := ⟨y 0, y 1, eq_ix2 y⟩
  rw [sage_pay0]
  unfold Cert.Sage.layer
  have hq : i 1 = q := Fin.ext hi1
  rw [hq]
  have e0 : ∀ k : Fin 256, x0 (ix2 p k) = agg (ix2 (i 0) k) := fun k => h0 (ix2 p k) (ix2 (i 0) k) hi0 rfl
  have e1 : ∀ k : Fin 256, x1 (ix2 p k) = h (ix2 (i 0) k) := fun k => h1 (ix2 p k) (ix2 (i 0) k) hi0 rfl
  simp only [e0, e1]

/-- The same for the second combine kernel. -/
theorem layer_block1 (agg h : S50000x256.Idx → EReal) (wl wr : S256x256.Idx → EReal) (b : S1x256.Idx → EReal)
    (x0 x1 : Vec Ideal S2000x256 .f32) (x2 x3 : Vec Ideal S256x256 .f32) (x4 : Vec Ideal S1x256 .f32)
    (y : S2000x256.Idx) (i : S50000x256.Idx) (r : Nat)
    (hi0 : (i 0).val = r + (y 0).val) (hi1 : (i 1).val = (y 1).val)
    (h0 : ∀ (y' : S2000x256.Idx) (i' : S50000x256.Idx), (i' 0).val = r + (y' 0).val → (i' 1).val = (y' 1).val → x0 y' = agg i')
    (h1 : ∀ (y' : S2000x256.Idx) (i' : S50000x256.Idx), (i' 0).val = r + (y' 0).val → (i' 1).val = (y' 1).val → x1 y' = h i')
    (h2 : x2 = wl) (h3 : x3 = wr) (h4 : x4 = b) :
    k1_pay1 (F := Ideal) x0 x1 x2 x3 x4 y = Cert.Sage.layer agg h wl wr b i :=
  layer_block0 agg h wl wr b x0 x1 x2 x3 x4 y i r hi0 hi1 h0 h1 h2 h3 h4

/-- The classifier kernel's one block is the whole read-out. -/
theorem classify_block (x0 : Vec Ideal S512x256 .f32) (x1 : Vec Ideal S256x32 .f32) (x2 : Vec Ideal S1x32 .f32) (y : S512x32.Idx) :
    k2_pay1 (F := Ideal) x0 x1 x2 y = Cert.Sage.classify x0 x1 x2 y := by
  obtain ⟨p, q, rfl⟩ : ∃ (p : Fin 512) (q : Fin 32), y = ix2 p q := ⟨y 0, y 1, eq_ix2 y⟩
  rw [cls_pay]
  rfl

end Cert.KernelIdeal.Hand

end
-- ==== Proof.Region0.lean ====
/-
  What combine region 0 leaves in its output array.

  The region runs the combine kernel at 25 grid points. At point `t` the two row operands' blocks are rows
  2000·t … 2000·t + 1999 of their arrays, the two weight matrices and the bias row are fetched whole, and the
  body's stored block is written back to rows 2000·t … 2000·t + 1999 of the output. So each written block is
  the restriction of ONE function of the arrays as the region finds them — the layer of `Cert.Sage.layer` — and
  since the 25 row blocks tile the 50000 rows the output array ends holding that function.
-/
import proofs.«105102_j88648124990053_1_alg».proof.Proof.Gen.KernelIdeal.Frame
import proofs.«105102_j88648124990053_1_alg».proof.Proof.SagePay
import Idealize.ShloMosaic.Lib.Pipeline.Value

set_option maxRecDepth 16384

noncomputable section

namespace Cert.KernelIdeal.Hand.Region0

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The index maps over the grid: the row operands and the output move with the point along the rows, the
    weights and the bias stay at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The aggregated rows' block at point `t` is rows 2000·t … of the array. -/
theorem rows_agg (c : Dev nD) (t : Fin cfg0.N) (y : S2000x256.Idx) (i : S50000x256.Idx)
    (e0 : (i 0).val = t.val * 2000 + (y 0).val) (e1 : (i 1).val = (y 1).val) :
    (iblk0 V c 0 t : Vec Ideal S2000x256 .f32) y = (V c main_v41 : S50000x256.Idx → EReal) i := by
  obtain ⟨h0, h1, -⟩ := index_facts t
  unfold iblk0
  rw [View.read_apply]
  show V c main_v41 _ = V c main_v41 _
  congr 1
  funext a
  apply Fin.ext
  match a with
  | ⟨0, _⟩ => show win0_0.index t 0 * 2000 + 1 * (y 0).val = (i 0).val; rw [h0, e0]; omega
  | ⟨1, _⟩ => show win0_0.index t 1 * 256 + 1 * (y 1).val = (i 1).val; rw [h1, e1]; omega

/-- The node features' block at point `t` is the same rows of their array. -/
theorem rows_h (c : Dev nD) (t : Fin cfg0.N) (y : S2000x256.Idx) (i : S50000x256.Idx)
    (e0 : (i 0).val = t.val * 2000 + (y 0).val) (e1 : (i 1).val = (y 1).val) :
    (iblk0 V c 1 t : Vec Ideal S2000x256 .f32) y = (V c main_v22 : S50000x256.Idx → EReal) i := by
  obtain ⟨-, -, h0, h1, -⟩ := index_facts t
  unfold iblk0
  rw [View.read_apply]
  show V c main_v22 _ = V c main_v22 _
  congr 1
  funext a
  apply Fin.ext
  match a with
  | ⟨0, _⟩ => show win0_1.index t 0 * 2000 + 1 * (y 0).val = (i 0).val; rw [h0, e0]; omega
  | ⟨1, _⟩ => show win0_1.index t 1 * 256 + 1 * (y 1).val = (i 1).val; rw [h1, e1]; omega

/-- The first weight matrix is fetched whole. -/
theorem whole_wl (c : Dev nD) (t : Fin cfg0.N) : (iblk0 V c 2 t : Vec Ideal S256x256 .f32) = (V c main_v42 : S256x256.Idx → EReal) := by
  obtain ⟨-, -, -, -, h0, h1, -⟩ := index_facts t
  funext y
  unfold iblk0
  rw [View.read_apply]
  show V c main_v42 _ = V c main_v42 y
  congr 1
  funext a
  apply Fin.ext
  match a with
  | ⟨0, _⟩ => show win0_2.index t 0 * 256 + 1 * (y 0).val = (y 0).val; rw [h0]; omega
  | ⟨1, _⟩ => show win0_2.index t 1 * 256 + 1 * (y 1).val = (y 1).val; rw [h1]; omega

/-- The second weight matrix is fetched whole. -/
theorem whole_wr (c : Dev nD) (t : Fin cfg0.N) : (iblk0 V c 3 t : Vec Ideal S256x256 .f32) = (V c main_v43 : S256x256.Idx → EReal) := by
  obtain ⟨-, -, -, -, -, -, h0, h1, -⟩ := index_facts t
  funext y
  unfold iblk0
  rw [View.read_apply]
  show V c main_v43 _ = V c main_v43 y
  congr 1
  funext a
  apply Fin.ext
  match a with
  | ⟨0, _⟩ => show win0_3.index t 0 * 256 + 1 * (y 0).val = (y 0).val; rw [h0]; omega
  | ⟨1, _⟩ => show win0_3.index t 1 * 256 + 1 * (y 1).val = (y 1).val; rw [h1]; omega

/-- The bias row is fetched whole. -/
theorem whole_b (c : Dev nD) (t : Fin cfg0.N) : (iblk0 V c 4 t : Vec Ideal S1x256 .f32) = (V c main_v44 : S1x256.Idx → EReal) := by
  obtain ⟨-, -, -, -, -, -, -, -, h0, h1, -⟩ := index_facts t
  funext y
  unfold iblk0
  rw [View.read_apply]
  show V c main_v44 _ = V c main_v44 y
  congr 1
  funext a
  apply Fin.ext
  match a with
  | ⟨0, _⟩ => show win0_4.index t 0 * 1 + 1 * (y 0).val = (y 0).val; rw [h0]; omega
  | ⟨1, _⟩ => show win0_4.index t 1 * 256 + 1 * (y 1).val = (y 1).val; rw [h1]; omega

/-- The layer of the arrays as the region finds them. -/
abbrev value (c : Dev nD) : S50000x256.Idx → EReal :=
  Cert.Sage.layer (V c main_v41) (V c main_v22) (V c main_v42) (V c main_v43) (V c main_v44)

/-- What point `t` writes back is block `t` of the layer. -/
theorem flushed_eq (c : Dev nD) (t : Fin cfg0.N) :
    (dat0 V c).flushed 5 t = ((cfg0.win 5).blk t).view.read (Elt Ideal) (value V c) := by
  show (cfg0.win 5).cut (grid0.coords t) ((dat0 V c).after 5 t) = _
  rw [after0_5]
  unfold out0_5
  rw [View.canon_unit_zero zero_off]
  simp only [View.ld_unit_zero (S := S2000x256) zero_off, View.ld_unit_zero (S := S256x256) zero_off,
    View.ld_unit_zero (S := S1x256) zero_off]
  obtain ⟨-, -, -, -, -, -, -, -, -, -, h0, h1⟩ := index_facts t
  funext y
  show k0_pay1 (F := Ideal) (iblk0 V c 0 t) (iblk0 V c 1 t) (iblk0 V c 2 t) (iblk0 V c 3 t) (iblk0 V c 4 t) y
    = value V c (((cfg0.win 5).blk t).view.emb y)
  refine layer_block0 (V c main_v41) (V c main_v22) (V c main_v42) (V c main_v43) (V c main_v44)
    (iblk0 V c 0 t) (iblk0 V c 1 t) (iblk0 V c 2 t) (iblk0 V c 3 t) (iblk0 V c 4 t) y _ (t.val * 2000) ?_ ?_
    (fun y' i' a b => rows_agg V c t y' i' a b) (fun y' i' a b => rows_h V c t y' i' a b)
    (whole_wl V c t) (whole_wr V c t) (whole_b V c t)
  · show win0_5.index t 0 * 2000 + 1 * (y 0).val = t.val * 2000 + (y 0).val; rw [h0]; omega
  · show win0_5.index t 1 * 256 + 1 * (y 1).val = (y 1).val; rw [h1]; omega

/-- An index of the output array is in point `t`'s block iff each coordinate is in the block's range. -/
theorem mem_block (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v45).slice (win0_5.rect t)).set ↔ _
  rw [View.set_slice_whole, Rect.mem_set_unit]
  exact Iff.rfl

/-- The 25 row blocks tile the 50000 rows, so the output array ends holding the layer. -/
theorem final (c : Dev nD) : (dat0 V c).arrAt 5 cfg0.N = value V c :=
  (dat0 V c).arrAt_eq_of_cover 5 (value V c) (fun t _ => flushed_eq V c t) fun i => by
    have hi0 : (i 0).val < 50000 := (i 0).isLt
    have hi1 : (i 1).val < 256 := (i 1).isLt
    have hN : cfg0.N = 25 := N_0
    refine ⟨⟨(i 0).val / 2000, by rw [hN]; omega⟩, flush0_5 _, ?_⟩
    rw [mem_block]
    obtain ⟨-, -, -, -, -, -, -, -, -, -, h0, h1⟩ := index_facts ⟨(i 0).val / 2000, by rw [hN]; omega⟩
    intro a
    match a with
    | ⟨0, _⟩ =>
      show win0_5.index ⟨(i 0).val / 2000, _⟩ 0 * 2000 ≤ (i 0).val ∧ (i 0).val < win0_5.index ⟨(i 0).val / 2000, _⟩ 0 * 2000 + 2000
      rw [h0]; show (i 0).val / 2000 * 2000 ≤ (i 0).val ∧ (i 0).val < (i 0).val / 2000 * 2000 + 2000; omega
    | ⟨1, _⟩ =>
      show win0_5.index ⟨(i 0).val / 2000, _⟩ 1 * 256 ≤ (i 1).val ∧ (i 1).val < win0_5.index ⟨(i 0).val / 2000, _⟩ 1 * 256 + 256
      rw [h1]; omega

end Cert.KernelIdeal.Hand.Region0

end
-- ==== Proof.Region1.lean ====
/-
  What combine region 1 leaves in its output array.

  The region runs the combine kernel at 25 grid points. At point `t` the two row operands' blocks are rows
  2000·t … 2000·t + 1999 of their arrays, the two weight matrices and the bias row are fetched whole, and the
  body's stored block is written back to rows 2000·t … 2000·t + 1999 of the output. So each written block is
  the restriction of ONE function of the arrays as the region finds them — the layer of `Cert.Sage.layer` — and
  since the 25 row blocks tile the 50000 rows the output array ends holding that function.
-/
import proofs.«105102_j88648124990053_1_alg».proof.Proof.Gen.KernelIdeal.Frame
import proofs.«105102_j88648124990053_1_alg».proof.Proof.SagePay
import Idealize.ShloMosaic.Lib.Pipeline.Value

set_option maxRecDepth 16384

noncomputable section

namespace Cert.KernelIdeal.Hand.Region1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The index maps over the grid: the row operands and the output move with the point along the rows, the
    weights and the bias stay at block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The aggregated rows' block at point `t` is rows 2000·t … of the array. -/
theorem rows_agg (c : Dev nD) (t : Fin cfg1.N) (y : S2000x256.Idx) (i : S50000x256.Idx)
    (e0 : (i 0).val = t.val * 2000 + (y 0).val) (e1 : (i 1).val = (y 1).val) :
    (iblk1 V c 0 t : Vec Ideal S2000x256 .f32) y = (V c main_v64 : S50000x256.Idx → EReal) i := by
  obtain ⟨h0, h1, -⟩ := index_facts t
  unfold iblk1
  rw [View.read_apply]
  show V c main_v64 _ = V c main_v64 _
  congr 1
  funext a
  apply Fin.ext
  match a with
  | ⟨0, _⟩ => show win1_0.index t 0 * 2000 + 1 * (y 0).val = (i 0).val; rw [h0, e0]; omega
  | ⟨1, _⟩ => show win1_0.index t 1 * 256 + 1 * (y 1).val = (i 1).val; rw [h1, e1]; omega

/-- The node features' block at point `t` is the same rows of their array. -/
theorem rows_h (c : Dev nD) (t : Fin cfg1.N) (y : S2000x256.Idx) (i : S50000x256.Idx)
    (e0 : (i 0).val = t.val * 2000 + (y 0).val) (e1 : (i 1).val = (y 1).val) :
    (iblk1 V c 1 t : Vec Ideal S2000x256 .f32) y = (V c main_v45 : S50000x256.Idx → EReal) i := by
  obtain ⟨-, -, h0, h1, -⟩ := index_facts t
  unfold iblk1
  rw [View.read_apply]
  show V c main_v45 _ = V c main_v45 _
  congr 1
  funext a
  apply Fin.ext
  match a with
  | ⟨0, _⟩ => show win1_1.index t 0 * 2000 + 1 * (y 0).val = (i 0).val; rw [h0, e0]; omega
  | ⟨1, _⟩ => show win1_1.index t 1 * 256 + 1 * (y 1).val = (i 1).val; rw [h1, e1]; omega

/-- The first weight matrix is fetched whole. -/
theorem whole_wl (c : Dev nD) (t : Fin cfg1.N) : (iblk1 V c 2 t : Vec Ideal S256x256 .f32) = (V c main_v65 : S256x256.Idx → EReal) := by
  obtain ⟨-, -, -, -, h0, h1, -⟩ := index_facts t
  funext y
  unfold iblk1
  rw [View.read_apply]
  show V c main_v65 _ = V c main_v65 y
  congr 1
  funext a
  apply Fin.ext
  match a with
  | ⟨0, _⟩ => show win1_2.index t 0 * 256 + 1 * (y 0).val = (y 0).val; rw [h0]; omega
  | ⟨1, _⟩ => show win1_2.index t 1 * 256 + 1 * (y 1).val = (y 1).val; rw [h1]; omega

/-- The second weight matrix is fetched whole. -/
theorem whole_wr (c : Dev nD) (t : Fin cfg1.N) : (iblk1 V c 3 t : Vec Ideal S256x256 .f32) = (V c main_v66 : S256x256.Idx → EReal) := by
  obtain ⟨-, -, -, -, -, -, h0, h1, -⟩ := index_facts t
  funext y
  unfold iblk1
  rw [View.read_apply]
  show V c main_v66 _ = V c main_v66 y
  congr 1
  funext a
  apply Fin.ext
  match a with
  | ⟨0, _⟩ => show win1_3.index t 0 * 256 + 1 * (y 0).val = (y 0).val; rw [h0]; omega
  | ⟨1, _⟩ => show win1_3.index t 1 * 256 + 1 * (y 1).val = (y 1).val; rw [h1]; omega

/-- The bias row is fetched whole. -/
theorem whole_b (c : Dev nD) (t : Fin cfg1.N) : (iblk1 V c 4 t : Vec Ideal S1x256 .f32) = (V c main_v67 : S1x256.Idx → EReal) := by
  obtain ⟨-, -, -, -, -, -, -, -, h0, h1, -⟩ := index_facts t
  funext y
  unfold iblk1
  rw [View.read_apply]
  show V c main_v67 _ = V c main_v67 y
  congr 1
  funext a
  apply Fin.ext
  match a with
  | ⟨0, _⟩ => show win1_4.index t 0 * 1 + 1 * (y 0).val = (y 0).val; rw [h0]; omega
  | ⟨1, _⟩ => show win1_4.index t 1 * 256 + 1 * (y 1).val = (y 1).val; rw [h1]; omega

/-- The layer of the arrays as the region finds them. -/
abbrev value (c : Dev nD) : S50000x256.Idx → EReal :=
  Cert.Sage.layer (V c main_v64) (V c main_v45) (V c main_v65) (V c main_v66) (V c main_v67)

/-- What point `t` writes back is block `t` of the layer. -/
theorem flushed_eq (c : Dev nD) (t : Fin cfg1.N) :
    (dat1 V c).flushed 5 t = ((cfg1.win 5).blk t).view.read (Elt Ideal) (value V c) := by
  show (cfg1.win 5).cut (grid1.coords t) ((dat1 V c).after 5 t) = _
  rw [after1_5]
  unfold out1_5
  rw [View.canon_unit_zero zero_off]
  simp only [View.ld_unit_zero (S := S2000x256) zero_off, View.ld_unit_zero (S := S256x256) zero_off,
    View.ld_unit_zero (S := S1x256) zero_off]
  obtain ⟨-, -, -, -, -, -, -, -, -, -, h0, h1⟩ := index_facts t
  funext y
  show k1_pay1 (F := Ideal) (iblk1 V c 0 t) (iblk1 V c 1 t) (iblk1 V c 2 t) (iblk1 V c 3 t) (iblk1 V c 4 t) y
    = value V c (((cfg1.win 5).blk t).view.emb y)
  refine layer_block1 (V c main_v64) (V c main_v45) (V c main_v65) (V c main_v66) (V c main_v67)
    (iblk1 V c 0 t) (iblk1 V c 1 t) (iblk1 V c 2 t) (iblk1 V c 3 t) (iblk1 V c 4 t) y _ (t.val * 2000) ?_ ?_
    (fun y' i' a b => rows_agg V c t y' i' a b) (fun y' i' a b => rows_h V c t y' i' a b)
    (whole_wl V c t) (whole_wr V c t) (whole_b V c t)
  · show win1_5.index t 0 * 2000 + 1 * (y 0).val = t.val * 2000 + (y 0).val; rw [h0]; omega
  · show win1_5.index t 1 * 256 + 1 * (y 1).val = (y 1).val; rw [h1]; omega

/-- An index of the output array is in point `t`'s block iff each coordinate is in the block's range. -/
theorem mem_block (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v68).slice (win1_5.rect t)).set ↔ _
  rw [View.set_slice_whole, Rect.mem_set_unit]
  exact Iff.rfl

/-- The 25 row blocks tile the 50000 rows, so the output array ends holding the layer. -/
theorem final (c : Dev nD) : (dat1 V c).arrAt 5 cfg1.N = value V c :=
  (dat1 V c).arrAt_eq_of_cover 5 (value V c) (fun t _ => flushed_eq V c t) fun i => by
    have hi0 : (i 0).val < 50000 := (i 0).isLt
    have hi1 : (i 1).val < 256 := (i 1).isLt
    have hN : cfg1.N = 25 := N_1
    refine ⟨⟨(i 0).val / 2000, by rw [hN]; omega⟩, flush1_5 _, ?_⟩
    rw [mem_block]
    obtain ⟨-, -, -, -, -, -, -, -, -, -, h0, h1⟩ := index_facts ⟨(i 0).val / 2000, by rw [hN]; omega⟩
    intro a
    match a with
    | ⟨0, _⟩ =>
      show win1_5.index ⟨(i 0).val / 2000, _⟩ 0 * 2000 ≤ (i 0).val ∧ (i 0).val < win1_5.index ⟨(i 0).val / 2000, _⟩ 0 * 2000 + 2000
      rw [h0]; show (i 0).val / 2000 * 2000 ≤ (i 0).val ∧ (i 0).val < (i 0).val / 2000 * 2000 + 2000; omega
    | ⟨1, _⟩ =>
      show win1_5.index ⟨(i 0).val / 2000, _⟩ 1 * 256 ≤ (i 1).val ∧ (i 1).val < win1_5.index ⟨(i 0).val / 2000, _⟩ 1 * 256 + 256
      rw [h1]; omega

end Cert.KernelIdeal.Hand.Region1

end
-- ==== Proof.RefLayer.lean ====
/-
  The reference's dense steps are the same functions of their operands.

  The reference computes a layer as max(((A · WL + bias) + H · WR), 0) with two whole-array matrix products, the bias
  vector broadcast first to a 1 × 256 row and then down the 50000 rows, and the zero broadcast from a scalar. At an
  index each product is the sum over the contracted coordinate and each broadcast reads its operand at the column, so
  the value is max((Σₖ A(p,k)·WL(k,q) + bias(q)) + Σₖ H(p,k)·WR(k,q), 0); moving the bias past the second sum
  (addition of extended reals is commutative and associative) gives `Cert.Sage.layer`. The read-out is
  Σₖ HG(p,k)·WC(k,q) + bias(q), which is `Cert.Sage.classify` as it stands. The bias row of the specification is any
  1 × n array that reads the bias vector at its column.
-/
import proofs.«105102_j88648124990053_1_alg».proof.Proof.Gen.ReferenceIdeal.Read
import proofs.«105102_j88648124990053_1_alg».proof.Proof.SageSpec
import proofs.«105102_j88648124990053_1_alg».proof.Proof.LibPlainDot
import Idealize.ShloMosaic.Lib.ValueIdx
import Idealize.ShloMosaic.Lib.Pipeline.Value

noncomputable section

namespace Cert.ReferenceIdeal.Hand

open Cert.ReferenceIdeal Cert.ReferenceIdeal.Gen
open Idealize.ShloMosaic Idealize.ShloMosaic.ValueIdx
open Cert.Sage (zeroF)

/-- A bias vector broadcast to a row and then down the rows reads the vector at the column. -/
theorem bias_rows (b : FVec Ideal S256 .f32) (p : Fin 50000) (q : Fin 256) :
    broadcastInDim S50000x256 ![0, 1] bcast_S1x256_S50000x256_0_1 (broadcastInDim S1x256 ![1] bcast_S256_S1x256_1 b) (ix2 p q)
      = b (ix1 q) := by
  rw [broadcastInDim_apply ![0, 1] bcast_S1x256_S50000x256_0_1 _ (ix2 p q) (ix2 (0 : Fin 1) q) (fun a => match a with
    | ⟨0, _⟩ => by show 0 = if (1 : Nat) = 1 then 0 else p.val; rw [if_pos rfl]
    | ⟨1, _⟩ => by show q.val = if (256 : Nat) = 1 then 0 else q.val; rw [if_neg (by decide)])]
  exact broadcastInDim_apply ![1] bcast_S256_S1x256_1 b (ix2 (0 : Fin 1) q) (ix1 q) (fun a => match a with
    | ⟨0, _⟩ => by show q.val = if (256 : Nat) = 1 then 0 else q.val; rw [if_neg (by decide)])

/-- The zero scalar broadcast over the node array is the zero word everywhere. -/
theorem zero_rows (p : Fin 50000) (q : Fin 256) :
    broadcastInDim S50000x256 ![] bcast_S_S50000x256 (constant (F := Ideal) S_ .f32 0x00000000#32) (ix2 p q) = zeroF :=
  broadcastInDim_apply ![] bcast_S_S50000x256 _ (ix2 p q) ix0 (fun a => a.elim0)

/-- The reference's layer, over any operands, is the layer of the specification. -/
theorem ref_layer (A H : FVec Ideal S50000x256 .f32) (WL WR : FVec Ideal S256x256 .f32) (b : FVec Ideal S256 .f32)
    (b2 : S1x256.Idx → EReal) (hb : ∀ q : Fin 256, b2 (ix2 (0 : Fin 1) q) = b (ix1 q)) :
    maximumf (addf (addf (Host.dotGeneral dot_S50000x256_S256x256_S50000x256_1_0_0_1_n_n none A WL)
          (broadcastInDim S50000x256 ![0, 1] bcast_S1x256_S50000x256_0_1 (broadcastInDim S1x256 ![1] bcast_S256_S1x256_1 b)))
        (Host.dotGeneral dot_S50000x256_S256x256_S50000x256_1_0_0_1_n_n none H WR))
      (broadcastInDim S50000x256 ![] bcast_S_S50000x256 (constant (F := Ideal) S_ .f32 0x00000000#32))
    = Cert.Sage.layer A H WL WR b2 := by
  funext i
  obtain ⟨p, q, rfl⟩ : ∃ (p : Fin 50000) (q : Fin 256), i = ix2 p q := ⟨i 0, i 1, eq_ix2 i⟩
  rw [maximumf_apply, addf_apply, addf_apply, bias_rows, zero_rows]
  have hl : Host.dotGeneral (F := Ideal) dot_S50000x256_S256x256_S50000x256_1_0_0_1_n_n none A WL (ix2 p q)
      = ∑ k : Fin 256, A (ix2 p k) * WL (ix2 k q) :=
    Cert.LibPlainDot.dotGeneral_plain (φ₁ := .f32) (φ₂ := .f32) dot_S50000x256_S256x256_S50000x256_1_0_0_1_n_n rfl rfl
      (fun _ _ => rfl) (fun _ _ => rfl) (fun _ _ => rfl) (fun _ _ => rfl) none _ A WL (ix2 p q)
  have hr : Host.dotGeneral (F := Ideal) dot_S50000x256_S256x256_S50000x256_1_0_0_1_n_n none H WR (ix2 p q)
      = ∑ k : Fin 256, H (ix2 p k) * WR (ix2 k q) :=
    Cert.LibPlainDot.dotGeneral_plain (φ₁ := .f32) (φ₂ := .f32) dot_S50000x256_S256x256_S50000x256_1_0_0_1_n_n rfl rfl
      (fun _ _ => rfl) (fun _ _ => rfl) (fun _ _ => rfl) (fun _ _ => rfl) none _ H WR (ix2 p q)
  rw [hl, hr]
  show max (((∑ k : Fin 256, A (ix2 p k) * WL (ix2 k q)) + b (ix1 q)) + ∑ k : Fin 256, H (ix2 p k) * WR (ix2 k q)) zeroF
    = max (((∑ k : Fin 256, A (ix2 p k) * WL (ix2 k q)) + ∑ k : Fin 256, H (ix2 p k) * WR (ix2 k q)) + b2 (ix2 (0 : Fin 1) q)) zeroF
  rw [hb q, add_right_comm]

/-- The reference's read-out, over any operands, is the read-out of the specification. -/
theorem ref_classify (HG : FVec Ideal S512x256 .f32) (WC : FVec Ideal S256x32 .f32) (b : FVec Ideal S32 .f32)
    (b2 : S1x32.Idx → EReal) (hb : ∀ q : Fin 32, b2 (ix2 (0 : Fin 1) q) = b (ix1 q)) :
    addf (Host.dotGeneral dot_S512x256_S256x32_S512x32_1_0_0_1_n_n none HG WC)
      (broadcastInDim S512x32 ![0, 1] bcast_S1x32_S512x32_0_1 (broadcastInDim S1x32 ![1] bcast_S32_S1x32_1 b))
    = Cert.Sage.classify HG WC b2 := by
  funext i
  obtain ⟨p, q, rfl⟩ : ∃ (p : Fin 512) (q : Fin 32), i = ix2 p q := ⟨i 0, i 1, eq_ix2 i⟩
  rw [addf_apply]
  have hl : Host.dotGeneral (F := Ideal) dot_S512x256_S256x32_S512x32_1_0_0_1_n_n none HG WC (ix2 p q)
      = ∑ k : Fin 256, HG (ix2 p k) * WC (ix2 k q) :=
    Cert.LibPlainDot.dotGeneral_plain (φ₁ := .f32) (φ₂ := .f32) dot_S512x256_S256x32_S512x32_1_0_0_1_n_n rfl rfl
      (fun _ _ => rfl) (fun _ _ => rfl) (fun _ _ => rfl) (fun _ _ => rfl) none _ HG WC (ix2 p q)
  have hbias : broadcastInDim S512x32 ![0, 1] bcast_S1x32_S512x32_0_1 (broadcastInDim S1x32 ![1] bcast_S32_S1x32_1 b) (ix2 p q)
      = b (ix1 q) := by
    rw [broadcastInDim_apply ![0, 1] bcast_S1x32_S512x32_0_1 _ (ix2 p q) (ix2 (0 : Fin 1) q) (fun a => match a with
      | ⟨0, _⟩ => by show 0 = if (1 : Nat) = 1 then 0 else p.val; rw [if_pos rfl]
      | ⟨1, _⟩ => by show q.val = if (32 : Nat) = 1 then 0 else q.val; rw [if_neg (by decide)])]
    exact broadcastInDim_apply ![1] bcast_S32_S1x32_1 b (ix2 (0 : Fin 1) q) (ix1 q) (fun a => match a with
      | ⟨0, _⟩ => by show q.val = if (32 : Nat) = 1 then 0 else q.val; rw [if_neg (by decide)])
  rw [hl, hbias]
  show (∑ k : Fin 256, HG (ix2 p k) * WC (ix2 k q)) + b (ix1 q) = (∑ k : Fin 256, HG (ix2 p k) * WC (ix2 k q)) + b2 (ix2 (0 : Fin 1) q)
  rw [hb q]

open Cert.ReferenceIdeal.Read

variable (x0 : (⟨S50000x2, .i32⟩ : BufTy).Contents (Elt Ideal)) (x1 : (⟨S2x800000, .i32⟩ : BufTy).Contents (Elt Ideal))
  (x2 : (⟨S50000, .i32⟩ : BufTy).Contents (Elt Ideal)) (x3 x4 : (⟨S64x128, .f32⟩ : BufTy).Contents (Elt Ideal))
  (x5 : (⟨S256x256, .f32⟩ : BufTy).Contents (Elt Ideal)) (x6 : (⟨S256, .f32⟩ : BufTy).Contents (Elt Ideal))
  (x7 x8 : (⟨S256x256, .f32⟩ : BufTy).Contents (Elt Ideal)) (x9 : (⟨S256, .f32⟩ : BufTy).Contents (Elt Ideal))
  (x10 : (⟨S256x256, .f32⟩ : BufTy).Contents (Elt Ideal)) (x11 : (⟨S32x256, .f32⟩ : BufTy).Contents (Elt Ideal))
  (x12 : (⟨S32, .f32⟩ : BufTy).Contents (Elt Ideal))

/-- The first layer's stage of the reference is the layer of the stages it reads. -/
theorem stage_layer1 (b2 : S1x256.Idx → EReal) (hb : ∀ q : Fin 256, b2 (ix2 (0 : Fin 1) q) = x6 (ix1 q)) :
    val_main_v50 (F := Ideal) x0 x1 x3 x4 x5 x6 x7
      = Cert.Sage.layer (val_main_v41 (F := Ideal) x0 x1 x3 x4) (val_main_v22 (F := Ideal) x0 x3 x4)
          (val_main_v42 (F := Ideal) x5) (val_main_v47 (F := Ideal) x7) b2 :=
  ref_layer _ _ _ _ x6 b2 hb

/-- The second layer's stage is the layer of the second aggregate and the first layer's output. -/
theorem stage_layer2 (b2 : S1x256.Idx → EReal) (hb : ∀ q : Fin 256, b2 (ix2 (0 : Fin 1) q) = x9 (ix1 q)) :
    val_main_v78 (F := Ideal) x0 x1 x3 x4 x5 x6 x7 x8 x9 x10
      = Cert.Sage.layer (val_main_v69 (F := Ideal) x0 x1 x3 x4 x5 x6 x7) (val_main_v50 (F := Ideal) x0 x1 x3 x4 x5 x6 x7)
          (val_main_v70 (F := Ideal) x8) (val_main_v75 (F := Ideal) x10) b2 :=
  ref_layer _ _ _ _ x9 b2 hb

/-- The result's stage is the read-out of the pooled features. -/
theorem stage_classify (b2 : S1x32.Idx → EReal) (hb : ∀ q : Fin 32, b2 (ix2 (0 : Fin 1) q) = x12 (ix1 q)) :
    val_main_v95 (F := Ideal) x0 x1 x2 x3 x4 x5 x6 x7 x8 x9 x10 x11 x12
      = Cert.Sage.classify (val_main_v90 (F := Ideal) x0 x1 x2 x3 x4 x5 x6 x7 x8 x9 x10) (val_main_v91 (F := Ideal) x11) b2 :=
  ref_classify _ _ x12 b2 hb

end Cert.ReferenceIdeal.Hand

end
-- ==== Proof.Layers.lean ====
/-
  From the first region to the second region's exit.

  The first region's output array holds the layer of the buffers it was entered with, which are the reference's
  stages (the first stretch, read), so it holds the reference's first-layer stage. The second stretch of host
  operations gathers that array along the edges and mean-aggregates it exactly as the reference does with its own
  first-layer output, transposes the second layer's weights and re-lays its bias; so the second region is entered with
  the reference's stages again, and its output array holds the reference's second-layer stage. The argument arrays
  these operations read are still as launched: no host operation and no region writes one.
-/
import proofs.«105102_j88648124990053_1_alg».proof.Proof.Host0
import proofs.«105102_j88648124990053_1_alg».proof.Proof.Region0
import proofs.«105102_j88648124990053_1_alg».proof.Proof.Region1
import proofs.«105102_j88648124990053_1_alg».proof.Proof.RefLayer

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read

variable (m : (ℓ : Loc nD τ sig) → Buf (Elt Ideal) ℓ) (ρ : Dev nD → PrngReg) (c : Dev nD)

/-- After the first region its output array holds the reference's first-layer stage. -/
theorem r0_out : W2 m ρ c (Proc.devRef .tc main_v45) = val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W2_arr m ρ c 5).trans (Region0.final (V1 m ρ) c)).trans ?_
  show Cert.Sage.layer (V1 m ρ c main_v41) (V1 m ρ c main_v22) (V1 m ρ c main_v42) (V1 m ρ c main_v43) (V1 m ρ c main_v44) = _
  rw [s0_agg, s0_feat, s0_wl, s0_wr]
  exact (Cert.ReferenceIdeal.Hand.stage_layer1 _ _ _ _ _ _ _ (V1 m ρ c main_v44) (s0_bias m ρ c)).symm

/-- Argument 8 is as launched at the first region's entry and exit. -/
theorem W1_arg8 : W1 m ρ c (Proc.devRef .tc main_arg8) = (m ((c : Thread nD τ).loc main_arg8)) := by
  show StableHlo.after hostOps0 (W0 m ρ c) (Proc.devRef .tc main_arg8) = _
  after_results_simp
theorem W2_arg8 : W2 m ρ c (Proc.devRef .tc main_arg8) = (m ((c : Thread nD τ).loc main_arg8)) :=
  (W2_of_ne m ρ c main_arg8 (by decide)).trans (W1_arg8 m ρ c)

/-- Argument 9 is as launched at the first region's entry and exit. -/
theorem W1_arg9 : W1 m ρ c (Proc.devRef .tc main_arg9) = (m ((c : Thread nD τ).loc main_arg9)) := by
  show StableHlo.after hostOps0 (W0 m ρ c) (Proc.devRef .tc main_arg9) = _
  after_results_simp
theorem W2_arg9 : W2 m ρ c (Proc.devRef .tc main_arg9) = (m ((c : Thread nD τ).loc main_arg9)) :=
  (W2_of_ne m ρ c main_arg9 (by decide)).trans (W1_arg9 m ρ c)

/-- Argument 10 is as launched at the first region's entry and exit. -/
theorem W1_arg10 : W1 m ρ c (Proc.devRef .tc main_arg10) = (m ((c : Thread nD τ).loc main_arg10)) := by
  show StableHlo.after hostOps0 (W0 m ρ c) (Proc.devRef .tc main_arg10) = _
  after_results_simp
theorem W2_arg10 : W2 m ρ c (Proc.devRef .tc main_arg10) = (m ((c : Thread nD τ).loc main_arg10)) :=
  (W2_of_ne m ρ c main_arg10 (by decide)).trans (W1_arg10 m ρ c)

/-- The second aggregate: the first region's output gathered along the edges and mean-aggregated, as in the reference. -/
theorem s1_agg : V3 m ρ c main_v64 = val_main_v69 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps1 (W2 m ρ c) (Proc.devRef .tc main_v64) = _
  after_results_simp
  rw [r0_out m ρ c, W2_of_ne m ρ c main_v1 (by decide), W2_of_ne m ρ c main_v3 (by decide),
    show W1 m ρ c (Proc.devRef .tc main_v1) = _ from s0_src m ρ c,
    show W1 m ρ c (Proc.devRef .tc main_v3) = _ from s0_dst m ρ c]
  rfl

/-- The first region's output is still in place at the second region's entry. -/
theorem s1_h : V3 m ρ c main_v45 = val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps1 (W2 m ρ c) (Proc.devRef .tc main_v45) = _
  after_results_simp
  exact r0_out m ρ c

/-- The second layer's first transposed weight matrix. -/
theorem s1_wl : V3 m ρ c main_v65 = val_main_v70 (F := Ideal) (m ((c : Thread nD τ).loc main_arg8)) := by
  show StableHlo.after hostOps1 (W2 m ρ c) (Proc.devRef .tc main_v65) = _
  after_results_simp
  rw [W2_arg8 m ρ c]
  rfl

/-- The second layer's second transposed weight matrix. -/
theorem s1_wr : V3 m ρ c main_v66 = val_main_v75 (F := Ideal) (m ((c : Thread nD τ).loc main_arg10)) := by
  show StableHlo.after hostOps1 (W2 m ρ c) (Proc.devRef .tc main_v66) = _
  after_results_simp
  rw [W2_arg10 m ρ c]
  rfl

/-- The second layer's bias row reads its bias vector at the column. -/
theorem s1_bias (q : Fin 256) : (V3 m ρ c main_v67 : S1x256.Idx → EReal) (ix2 (0 : Fin 1) q) = (m ((c : Thread nD τ).loc main_arg9)) (ix1 q) := by
  have e : (V3 m ρ c main_v67 : S1x256.Idx → EReal) = shapeCast S1x256 (m ((c : Thread nD τ).loc main_arg9)) shapeCasts_S256_S1x256 := by
    show StableHlo.after hostOps1 (W2 m ρ c) (Proc.devRef .tc main_v67) = _
    after_results_simp
    rw [W2_arg9 m ρ c]
    rfl
  rw [e]
  exact row_of_vec _ q

/-- After the second region its output array holds the reference's second-layer stage. -/
theorem r1_out : W4 m ρ c (Proc.devRef .tc main_v68) = val_main_v78 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W4_arr m ρ c 5).trans (Region1.final (V3 m ρ) c)).trans ?_
  show Cert.Sage.layer (V3 m ρ c main_v64) (V3 m ρ c main_v45) (V3 m ρ c main_v65) (V3 m ρ c main_v66) (V3 m ρ c main_v67) = _
  rw [s1_agg, s1_h, s1_wl, s1_wr]
  exact (Cert.ReferenceIdeal.Hand.stage_layer2 _ _ _ _ _ _ _ _ _ _ (V3 m ρ c main_v67) (s1_bias m ρ c)).symm

end Cert.KernelIdeal.Hand

end
-- ==== Proof.Region2.lean ====
/-
  What the classifier region leaves in its output array.

  The region runs the classifier kernel at its one grid point: the pooled features, the transposed weight matrix
  and the bias row are each fetched whole, and the stored block is the whole 512 × 32 output. So the output array
  ends holding the read-out `Cert.Sage.classify` of the arrays as the region finds them.
-/
import proofs.«105102_j88648124990053_1_alg».proof.Proof.Gen.KernelIdeal.Frame
import proofs.«105102_j88648124990053_1_alg».proof.Proof.SagePay
import Idealize.ShloMosaic.Lib.Pipeline.Value

set_option maxRecDepth 16384

noncomputable section

namespace Cert.KernelIdeal.Hand.Region2

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- Every window sits at block (0, 0) at the one grid point. -/
theorem index_facts : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- The pooled features are fetched whole. -/
theorem whole_hg (c : Dev nD) (t : Fin cfg2.N) : (iblk2 V c 0 t : Vec Ideal S512x256 .f32) = (V c main_v80 : S512x256.Idx → EReal) := by
  obtain ⟨h0, h1, -⟩ := index_facts t
  funext y
  unfold iblk2
  rw [View.read_apply]
  show V c main_v80 _ = V c main_v80 y
  congr 1
  funext a
  apply Fin.ext
  match a with
  | ⟨0, _⟩ => show win2_0.index t 0 * 512 + 1 * (y 0).val = (y 0).val; rw [h0]; omega
  | ⟨1, _⟩ => show win2_0.index t 1 * 256 + 1 * (y 1).val = (y 1).val; rw [h1]; omega

/-- The weight matrix is fetched whole. -/
theorem whole_wc (c : Dev nD) (t : Fin cfg2.N) : (iblk2 V c 1 t : Vec Ideal S256x32 .f32) = (V c main_v81 : S256x32.Idx → EReal) := by
  obtain ⟨-, -, h0, h1, -⟩ := index_facts t
  funext y
  unfold iblk2
  rw [View.read_apply]
  show V c main_v81 _ = V c main_v81 y
  congr 1
  funext a
  apply Fin.ext
  match a with
  | ⟨0, _⟩ => show win2_1.index t 0 * 256 + 1 * (y 0).val = (y 0).val; rw [h0]; omega
  | ⟨1, _⟩ => show win2_1.index t 1 * 32 + 1 * (y 1).val = (y 1).val; rw [h1]; omega

/-- The bias row is fetched whole. -/
theorem whole_b (c : Dev nD) (t : Fin cfg2.N) : (iblk2 V c 2 t : Vec Ideal S1x32 .f32) = (V c main_v82 : S1x32.Idx → EReal) := by
  obtain ⟨-, -, -, -, h0, h1, -⟩ := index_facts t
  funext y
  unfold iblk2
  rw [View.read_apply]
  show V c main_v82 _ = V c main_v82 y
  congr 1
  funext a
  apply Fin.ext
  match a with
  | ⟨0, _⟩ => show win2_2.index t 0 * 1 + 1 * (y 0).val = (y 0).val; rw [h0]; omega
  | ⟨1, _⟩ => show win2_2.index t 1 * 32 + 1 * (y 1).val = (y 1).val; rw [h1]; omega

/-- The read-out of the arrays as the region finds them. -/
abbrev value (c : Dev nD) : S512x32.Idx → EReal :=
  Cert.Sage.classify (V c main_v80) (V c main_v81) (V c main_v82)

/-- What the one point writes back is the whole read-out, read through its block at (0, 0). -/
theorem flushed_eq (c : Dev nD) (t : Fin cfg2.N) :
    (dat2 V c).flushed 3 t = ((cfg2.win 3).blk t).view.read (Elt Ideal) (value V c) := by
  show (cfg2.win 3).cut (grid2.coords t) ((dat2 V c).after 3 t) = _
  rw [after2_3]
  unfold out2_3
  rw [View.canon_unit_zero zero_off]
  simp only [View.ld_unit_zero (S := S512x256) zero_off, View.ld_unit_zero (S := S256x32) zero_off,
    View.ld_unit_zero (S := S1x32) zero_off]
  obtain ⟨-, -, -, -, -, -, h0, h1⟩ := index_facts t
  funext y
  show k2_pay1 (F := Ideal) (iblk2 V c 0 t) (iblk2 V c 1 t) (iblk2 V c 2 t) y
    = value V c (((cfg2.win 3).blk t).view.emb y)
  rw [whole_hg V c t, whole_wc V c t, whole_b V c t]
  refine (classify_block _ _ _ y).trans ?_
  show value V c y = value V c _
  congr 1
  funext a
  apply Fin.ext
  match a with
  | ⟨0, _⟩ => show (y 0).val = win2_3.index t 0 * 512 + 1 * (y 0).val; rw [h0]; omega
  | ⟨1, _⟩ => show (y 1).val = win2_3.index t 1 * 32 + 1 * (y 1).val; rw [h1]; omega

/-- An index of the output array is in the point's block iff each coordinate is in the block's range. -/
theorem mem_block (t : Fin cfg2.N) (i : S512x32.Idx) :
    i ∈ ((cfg2.win 3).blk t).view.set ↔ ∀ a : Fin 2, win2_3.index t a * S512x32.size a ≤ (i a).val ∧ (i a).val < win2_3.index t a * S512x32.size a + S512x32.size a := by
  show i ∈ ((View.whole main_v83).slice (win2_3.rect t)).set ↔ _
  rw [View.set_slice_whole, Rect.mem_set_unit]
  exact Iff.rfl

/-- The one block is the whole array, so the output array ends holding the read-out. -/
theorem final (c : Dev nD) : (dat2 V c).arrAt 3 cfg2.N = value V c :=
  (dat2 V c).arrAt_eq_of_cover 3 (value V c) (fun t _ => flushed_eq V c t) fun i => by
    have hi0 : (i 0).val < 512 := (i 0).isLt
    have hi1 : (i 1).val < 32 := (i 1).isLt
    have hN : cfg2.N = 1 := N_2
    refine ⟨⟨0, by rw [hN]; omega⟩, flush2_3 _, ?_⟩
    rw [mem_block]
    obtain ⟨-, -, -, -, -, -, h0, h1⟩ := index_facts ⟨0, by rw [hN]; omega⟩
    intro a
    match a with
    | ⟨0, _⟩ =>
      show win2_3.index ⟨0, _⟩ 0 * 512 ≤ (i 0).val ∧ (i 0).val < win2_3.index ⟨0, _⟩ 0 * 512 + 512
      rw [h0]; omega
    | ⟨1, _⟩ =>
      show win2_3.index ⟨0, _⟩ 1 * 32 ≤ (i 1).val ∧ (i 1).val < win2_3.index ⟨0, _⟩ 1 * 32 + 32
      rw [h1]; omega

end Cert.KernelIdeal.Hand.Region2

end
-- ==== Proof.Readout.lean ====
/-
  From the second region's exit to the result.

  The last stretch of host operations sums the second region's output per graph, divides by the graph sizes,
  transposes the classifier's weights and re-lays its bias, as the reference does with its own second-layer output. So
  the classifier region is entered with the reference's pooled stage and its output — the program's result — holds
  the reference's result stage.
-/
import proofs.«105102_j88648124990053_1_alg».proof.Proof.Layers
import proofs.«105102_j88648124990053_1_alg».proof.Proof.Region2

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read

variable (m : (ℓ : Loc nD τ sig) → Buf (Elt Ideal) ℓ) (ρ : Dev nD → PrngReg) (c : Dev nD)

/-- Argument 2 is as launched at the first region's entry and exit. -/
theorem W1_arg2 : W1 m ρ c (Proc.devRef .tc main_arg2) = (m ((c : Thread nD τ).loc main_arg2)) := by
  show StableHlo.after hostOps0 (W0 m ρ c) (Proc.devRef .tc main_arg2) = _
  after_results_simp
theorem W2_arg2 : W2 m ρ c (Proc.devRef .tc main_arg2) = (m ((c : Thread nD τ).loc main_arg2)) :=
  (W2_of_ne m ρ c main_arg2 (by decide)).trans (W1_arg2 m ρ c)

/-- Argument 2 is as launched at the second region's entry and exit. -/
theorem W3_arg2 : W3 m ρ c (Proc.devRef .tc main_arg2) = (m ((c : Thread nD τ).loc main_arg2)) := by
  show StableHlo.after hostOps1 (W2 m ρ c) (Proc.devRef .tc main_arg2) = _
  after_results_simp
  exact W2_arg2 m ρ c
theorem W4_arg2 : W4 m ρ c (Proc.devRef .tc main_arg2) = (m ((c : Thread nD τ).loc main_arg2)) :=
  (W4_of_ne m ρ c main_arg2 (by decide)).trans (W3_arg2 m ρ c)

/-- Argument 11 is as launched at the first region's entry and exit. -/
theorem W1_arg11 : W1 m ρ c (Proc.devRef .tc main_arg11) = (m ((c : Thread nD τ).loc main_arg11)) := by
  show StableHlo.after hostOps0 (W0 m ρ c) (Proc.devRef .tc main_arg11) = _
  after_results_simp
theorem W2_arg11 : W2 m ρ c (Proc.devRef .tc main_arg11) = (m ((c : Thread nD τ).loc main_arg11)) :=
  (W2_of_ne m ρ c main_arg11 (by decide)).trans (W1_arg11 m ρ c)

/-- Argument 11 is as launched at the second region's entry and exit. -/
theorem W3_arg11 : W3 m ρ c (Proc.devRef .tc main_arg11) = (m ((c : Thread nD τ).loc main_arg11)) := by
  show StableHlo.after hostOps1 (W2 m ρ c) (Proc.devRef .tc main_arg11) = _
  after_results_simp
  exact W2_arg11 m ρ c
theorem W4_arg11 : W4 m ρ c (Proc.devRef .tc main_arg11) = (m ((c : Thread nD τ).loc main_arg11)) :=
  (W4_of_ne m ρ c main_arg11 (by decide)).trans (W3_arg11 m ρ c)

/-- Argument 12 is as launched at the first region's entry and exit. -/
theorem W1_arg12 : W1 m ρ c (Proc.devRef .tc main_arg12) = (m ((c : Thread nD τ).loc main_arg12)) := by
  show StableHlo.after hostOps0 (W0 m ρ c) (Proc.devRef .tc main_arg12) = _
  after_results_simp
theorem W2_arg12 : W2 m ρ c (Proc.devRef .tc main_arg12) = (m ((c : Thread nD τ).loc main_arg12)) :=
  (W2_of_ne m ρ c main_arg12 (by decide)).trans (W1_arg12 m ρ c)

/-- Argument 12 is as launched at the second region's entry and exit. -/
theorem W3_arg12 : W3 m ρ c (Proc.devRef .tc main_arg12) = (m ((c : Thread nD τ).loc main_arg12)) := by
  show StableHlo.after hostOps1 (W2 m ρ c) (Proc.devRef .tc main_arg12) = _
  after_results_simp
  exact W2_arg12 m ρ c
theorem W4_arg12 : W4 m ρ c (Proc.devRef .tc main_arg12) = (m ((c : Thread nD τ).loc main_arg12)) :=
  (W4_of_ne m ρ c main_arg12 (by decide)).trans (W3_arg12 m ρ c)

/-- The pooled features entering the classifier region are the reference's. -/
theorem s2_pool : V5 m ρ c main_v80 = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps2 (W4 m ρ c) (Proc.devRef .tc main_v80) = _
  after_results_simp
  rw [r1_out m ρ c, W4_arg2 m ρ c]
  rfl

/-- The classifier's transposed weight matrix. -/
theorem s2_wc : V5 m ρ c main_v81 = val_main_v91 (F := Ideal) (m ((c : Thread nD τ).loc main_arg11)) := by
  show StableHlo.after hostOps2 (W4 m ρ c) (Proc.devRef .tc main_v81) = _
  after_results_simp
  rw [W4_arg11 m ρ c]
  rfl

/-- A vector of 32 re-laid as a 1 × 32 row reads the vector at the column. -/
theorem row_of_vec32 (b : S32.Idx → EReal) (q : Fin 32) :
    shapeCast S1x32 b shapeCasts_S32_S1x32 (ix2 (0 : Fin 1) q) = b (ix1 q) :=
  shapeCast_apply b shapeCasts_S32_S1x32 (ix2 (0 : Fin 1) q) (ix1 q) (by
    rw [Shape.rowMajor_val_one, Shape.rowMajor_val_two]
    show q.val = 0 * 32 + q.val
    omega)

/-- The classifier's bias row reads its bias vector at the column. -/
theorem s2_bias (q : Fin 32) : (V5 m ρ c main_v82 : S1x32.Idx → EReal) (ix2 (0 : Fin 1) q) = (m ((c : Thread nD τ).loc main_arg12)) (ix1 q) := by
  have e : (V5 m ρ c main_v82 : S1x32.Idx → EReal) = shapeCast S1x32 (m ((c : Thread nD τ).loc main_arg12)) shapeCasts_S32_S1x32 := by
    show StableHlo.after hostOps2 (W4 m ρ c) (Proc.devRef .tc main_v82) = _
    after_results_simp
    rw [W4_arg12 m ρ c]
    rfl
  rw [e]
  exact row_of_vec32 _ q

/-- At the last boundary the result array holds the reference's result stage of the same arguments. -/
theorem result_out : W6 m ρ c (Proc.devRef .tc main_v83) = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine ((W6_arr m ρ c 3).trans (Region2.final (V5 m ρ) c)).trans ?_
  show Cert.Sage.classify (V5 m ρ c main_v80) (V5 m ρ c main_v81) (V5 m ρ c main_v82) = _
  rw [s2_pool, s2_wc]
  exact (Cert.ReferenceIdeal.Hand.stage_classify _ _ _ _ _ _ _ _ _ _ _ _ _ (V5 m ρ c main_v82) (s2_bias m ρ c)).symm

end Cert.KernelIdeal.Hand

end
-- ==== Proof.lean ====
/-
  A two-layer message-passing network with mean pooling and a linear read-out: the kernel program against its plain
  reference, equal over the extended reals.

  Both programs embed the nodes, and then twice: gather the node features along the edges, mean-aggregate them at the
  edges' destinations, and apply relu(agg · Wlᵀ + h · Wrᵀ + b); then they average the node features per graph and
  apply hg · Wcᵀ + bc. The gathers, scatters, divisions and transposes are the same host operations, in the same
  order, in both programs. They differ in the three dense steps: the kernel program runs each as a kernel region —
  row blocks of 2000 nodes against the whole weight matrices for the two layers, one block for the read-out — with
  the bias added last, where the reference uses whole-array matrix products and adds the bias between the two
  products.

  At the exact values a matrix product into a zero accumulator is the sum over the contracted coordinate, a change of
  float format is the identity, and the row blocks tile the node axis, so each region leaves in its output array ONE
  function of the arrays it was entered with (`Cert.Sage.layer`, `Cert.Sage.classify`). The reference's dense steps
  are the same functions once the bias is moved past the second product, which needs only that addition of extended
  reals is commutative and associative — no finiteness, so the precondition is never opened. Following the buffers
  boundary by boundary through the kernel program, every region is entered with the reference's stages of the same
  arguments, and the result array ends holding the reference's result stage.

  The three frames are the generated ones (the reference's is its generated run with the result dropped); the
  idealization rewrote nothing, so that claim is trivial.
-/
import proofs.«105102_j88648124990053_1_alg».proof.Defs
import proofs.«105102_j88648124990053_1_alg».proof.Proof.Gen.Kernel
import proofs.«105102_j88648124990053_1_alg».proof.Proof.Gen.Kernel.Skeleton
import proofs.«105102_j88648124990053_1_alg».proof.Proof.Gen.Kernel.Launch
import proofs.«105102_j88648124990053_1_alg».proof.Proof.Gen.Kernel.Points
import proofs.«105102_j88648124990053_1_alg».proof.Proof.Gen.Kernel.Frame
import proofs.«105102_j88648124990053_1_alg».proof.Proof.Gen.KernelIdeal
import proofs.«105102_j88648124990053_1_alg».proof.Proof.Gen.KernelIdeal.Skeleton
import proofs.«105102_j88648124990053_1_alg».proof.Proof.Gen.KernelIdeal.Launch
import proofs.«105102_j88648124990053_1_alg».proof.Proof.Gen.KernelIdeal.Points
import proofs.«105102_j88648124990053_1_alg».proof.Proof.Gen.KernelIdeal.Frame
import proofs.«105102_j88648124990053_1_alg».proof.Proof.Gen.ReferenceIdeal
import proofs.«105102_j88648124990053_1_alg».proof.Proof.Gen.Pre_finite_inputs
import proofs.«105102_j88648124990053_1_alg».proof.Proof.Gen.ReferenceIdeal.Read
import proofs.«105102_j88648124990053_1_alg».proof.Proof.KRun
import proofs.«105102_j88648124990053_1_alg».proof.Proof.Readout
import Idealize.ShloMosaic.Adequacy
import Idealize.ShloMosaic.Init

noncomputable section

namespace Cert.Proof

open Idealize.ShloMosaic Idealize.ShloMosaic.TcCoe Idealize.SL.Sem

/-- The kernel program and the reference, run from memories that agree on the arguments, end with equal results:
    the kernel's result array holds the last boundary's contents, which are the reference's result stage of the
    kernel's arguments; the reference's result is that stage of its own arguments; the arguments agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.W6 m ρ c (Proc.devRef .tc Cert.KernelIdeal.main_v83),
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12⟩ := hagree c
  rw [Cert.ReferenceIdeal.Read.val_main_v95_eq, e0, e1, e2, e3, e4, e5, e6, e7, e8, e9, e10, e11, e12]
  exact (Cert.KernelIdeal.Hand.result_out m ρ c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
